-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000x6 : Shape := ⟨2, ![100000, 6]⟩
abbrev S2x1600000 : Shape := ⟨2, ![2, 1600000]⟩
abbrev S512x64 : Shape := ⟨2, ![512, 64]⟩
abbrev S64 : Shape := ⟨1, ![64]⟩
abbrev S6x64 : Shape := ⟨2, ![6, 64]⟩
abbrev S128x7 : Shape := ⟨2, ![128, 7]⟩
abbrev S7 : Shape := ⟨1, ![7]⟩
abbrev S64x1 : Shape := ⟨2, ![64, 1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000x6 : S_.BroadcastsInDim S100000x6 (![] : Fin 0 → Fin S100000x6.rank)
  reducesTo_S100000x6_S_d0_1 : S100000x6.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S6x64 : S_.BroadcastsInDim S6x64 (![] : Fin 0 → Fin S6x64.rank)
  reducesTo_S6x64_S_d0_1 : S6x64.ReducesTo [0, 1] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_
  bcast_S_S64x1 : S_.BroadcastsInDim S64x1 (![] : Fin 0 → Fin S64x1.rank)
  reducesTo_S64x1_S_d0_1 : S64x1.ReducesTo [0, 1] S_
  reducesTo_S_S_d : S_.ReducesTo [] S_

variable [Facts]

def fn_part3 {F : FTy → Type} [FloatOps F] (main_arg12 : FVec F S_ .f32) (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  let main_v53 : FVec F S_ .f32 := Host.absf main_arg12
  let main_cst_20 : FVec F S_ .f32 := constant S_ .f32 0x7F800000#32
  let main_v54 : IVec S_ 1 := cmpf .olt main_v53 main_cst_20
  let main_c_21 : IVec S_ 1 := constantI S_ 1 1#1
  let main_v55 : IVec S_ 1 := (fun x v => Host.reduce IntOp.andi x v reducesTo_S_S_d h_S_) main_v54 main_c_21
  let main_v56 : IVec S_ 1 := andi main_v52 main_v55
  main_v56

def fn_part2 {F : FTy → Type} [FloatOps F] (main_arg8 : FVec F S7 .f32) (main_arg9 : FVec F S6x64 .f32) (main_arg10 : FVec F S64x1 .f32) (main_arg11 : FVec F S_ .f32) (main_arg12 : FVec F S_ .f32) (main_v33 : IVec S_ 1) : IVec S_ 1 :=
  let main_v34 : FVec F S7 .f32 := Host.absf main_arg8
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  let main_v39 : FVec F S6x64 .f32 := Host.absf main_arg9
  let main_cst_14 : FVec F S_ .f32 := constant S_ .f32 0x7F800000#32
  let main_v40 : FVec F S6x64 .f32 := broadcastInDim S6x64 ![] bcast_S_S6x64 main_cst_14
  let main_v41 : IVec S6x64 1 := cmpf .olt main_v39 main_v40
  let main_c_15 : IVec S_ 1 := constantI S_ 1 1#1
  let main_v42 : IVec S_ 1 := (fun x v => Host.reduce IntOp.andi x v reducesTo_S6x64_S_d0_1 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S_ .f32 := Host.absf main_arg11
  let main_cst_18 : FVec F S_ .f32 := constant S_ .f32 0x7F800000#32
  let main_v50 : IVec S_ 1 := cmpf .olt main_v49 main_cst_18
  fn_part3 (F := F) main_arg12 main_v48 main_v50

def fn_part1 {F : FTy → Type} [FloatOps F] (main_arg5 : FVec F S6x64 .f32) (main_arg6 : FVec F S64 .f32) (main_arg7 : FVec F S128x7 .f32) (main_arg8 : FVec F S7 .f32) (main_arg9 : FVec F S6x64 .f32) (main_arg10 : FVec F S64x1 .f32) (main_arg11 : FVec F S_ .f32) (main_arg12 : FVec F S_ .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S6x64 .f32 := Host.absf main_arg5
  let main_cst_6 : FVec F S_ .f32 := constant S_ .f32 0x7F800000#32
  let main_v20 : FVec F S6x64 .f32 := broadcastInDim S6x64 ![] bcast_S_S6x64 main_cst_6
  let main_v21 : IVec S6x64 1 := cmpf .olt main_v19 main_v20
  let main_c_7 : IVec S_ 1 := constantI S_ 1 1#1
  let main_v22 : IVec S_ 1 := (fun x v => Host.reduce IntOp.andi x v reducesTo_S6x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x7 .f32 := Host.absf main_arg7
  let main_cst_10 : FVec F S_ .f32 := constant S_ .f32 0x7F800000#32
  let main_v30 : FVec F S128x7 .f32 := broadcastInDim S128x7 ![] bcast_S_S128x7 main_cst_10
  let main_v31 : IVec S128x7 1 := cmpf .olt main_v29 main_v30
  let main_c_11 : IVec S_ 1 := constantI S_ 1 1#1
  let main_v32 : IVec S_ 1 := (fun x v => Host.reduce IntOp.andi x v reducesTo_S128x7_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x512 .f32) (main_arg1 : FVec F S100000x6 .f32) (main_arg2 : IVec S2x1600000 32) (main_arg3 : FVec F S512x64 .f32) (main_arg4 : FVec F S64 .f32) (main_arg5 : FVec F S6x64 .f32) (main_arg6 : FVec F S64 .f32) (main_arg7 : FVec F S128x7 .f32) (main_arg8 : FVec F S7 .f32) (main_arg9 : FVec F S6x64 .f32) (main_arg10 : FVec F S64x1 .f32) (main_arg11 : FVec F S_ .f32) (main_arg12 : FVec F S_ .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x6 .f32 := Host.absf main_arg1
  let main_cst_0 : FVec F S_ .f32 := constant S_ .f32 0x7F800000#32
  let main_v5 : FVec F S100000x6 .f32 := broadcastInDim S100000x6 ![] bcast_S_S100000x6 main_cst_0
  let main_v6 : IVec S100000x6 1 := cmpf .olt main_v4 main_v5
  let main_c_1 : IVec S_ 1 := constantI S_ 1 1#1
  let main_v7 : IVec S_ 1 := (fun x v => Host.reduce IntOp.andi x v reducesTo_S100000x6_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x512 : Shape := ⟨2, ![100000, 512]⟩
abbrev S100000x6 : Shape := ⟨2, ![100000, 6]⟩
abbrev S2x1600000 : Shape := ⟨2, ![2, 1600000]⟩
abbrev S512x64 : Shape := ⟨2, ![512, 64]⟩
abbrev S64 : Shape := ⟨1, ![64]⟩
abbrev S6x64 : Shape := ⟨2, ![6, 64]⟩
abbrev S128x7 : Shape := ⟨2, ![128, 7]⟩
abbrev S7 : Shape := ⟨1, ![7]⟩
abbrev S64x1 : Shape := ⟨2, ![64, 1]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S100000x64 : Shape := ⟨2, ![100000, 64]⟩
abbrev S5000x512 : Shape := ⟨2, ![5000, 512]⟩
abbrev S5000x64 : Shape := ⟨2, ![5000, 64]⟩
abbrev S1700000x64 : Shape := ⟨2, ![1700000, 64]⟩
abbrev S1x64 : Shape := ⟨2, ![1, 64]⟩
abbrev S6x1 : Shape := ⟨2, ![6, 1]⟩
abbrev S6 : Shape := ⟨1, ![6]⟩
abbrev S1x6 : Shape := ⟨2, ![1, 6]⟩
abbrev S5000x6 : Shape := ⟨2, ![5000, 6]⟩
abbrev S100000x128 : Shape := ⟨2, ![100000, 128]⟩
abbrev S100000x7 : Shape := ⟨2, ![100000, 7]⟩
abbrev S5000x128 : Shape := ⟨2, ![5000, 128]⟩
abbrev S5000x7 : Shape := ⟨2, ![5000, 7]⟩
abbrev S1700000x7 : Shape := ⟨2, ![1700000, 7]⟩
abbrev S1x7 : Shape := ⟨2, ![1, 7]⟩

abbrev nBuf : Space → Nat
  | .hbm => 153
  | .vmem => 15
  | .smem => 0
  | _ => 0

abbrev hbmTy0_0 (i : Nat) : BufTy := match i % 128 with
  | 0 => ⟨S100000x512, .f32⟩
  | 1 => ⟨S100000x6, .f32⟩
  | 2 => ⟨S2x1600000, .i32⟩
  | 3 => ⟨S512x64, .f32⟩
  | 4 => ⟨S64, .f32⟩
  | 5 => ⟨S6x64, .f32⟩
  | 6 => ⟨S64, .f32⟩
  | 7 => ⟨S128x7, .f32⟩
  | 8 => ⟨S7, .f32⟩
  | 9 => ⟨S6x64, .f32⟩
  | 10 => ⟨S64x1, .f32⟩
  | 11 => ⟨S_, .f32⟩
  | 12 => ⟨S_, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S6x1, .f32⟩
  | 76 => ⟨S6x1, .f32⟩
  | 77 => ⟨S6x1, .f32⟩
  | 78 => ⟨S_, .f32⟩
  | 79 => ⟨S6x1, .f32⟩
  | 80 => ⟨S6x1, .f32⟩
  | 81 => ⟨S_, .f32⟩
  | 82 => ⟨S6x1, .f32⟩
  | 83 => ⟨S6x1, .f32⟩
  | 84 => ⟨S_, .f32⟩
  | 85 => ⟨S6x1, .f32⟩
  | 86 => ⟨S6x1, .i1⟩
  | 87 => ⟨S_, .f32⟩
  | 88 => ⟨S_, .f32⟩
  | 89 => ⟨S6x1, .f32⟩
  | 90 => ⟨S6x1, .f32⟩
  | 91 => ⟨S6x1, .f32⟩
  | 92 => ⟨S6x1, .f32⟩
  | 93 => ⟨S6, .f32⟩
  | 94 => ⟨S1x6, .f32⟩
  | 95 => ⟨S100000x6, .f32⟩
  | 96 => ⟨S100000x6, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S_, .f32⟩
  | 119 => ⟨S_, .f32⟩
  | 120 => ⟨S_, .f32⟩
  | 121 => ⟨S_, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x64, .f32⟩
  | _ => ⟨S100000x512, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x128, .f32⟩
  | 5 => ⟨S100000x7, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x7, .f32⟩
  | 15 => ⟨S1700000x1, .f32⟩
  | 16 => ⟨S1700000x7, .f32⟩
  | 17 => ⟨S1700000x7, .f32⟩
  | 18 => ⟨S_, .f32⟩
  | 19 => ⟨S100000x7, .f32⟩
  | 20 => ⟨S1700000x1, .i32⟩
  | 21 => ⟨S100000x7, .f32⟩
  | 22 => ⟨S1x7, .f32⟩
  | 23 => ⟨S100000x7, .f32⟩
  | 24 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x6, .f32⟩
  | .local _ .vmem, ⟨6, _⟩ => ⟨S5000x6, .f32⟩
  | .local _ .vmem, ⟨7, _⟩ => ⟨S6x64, .f32⟩
  | .local _ .vmem, ⟨8, _⟩ => ⟨S5000x64, .f32⟩
  | .local _ .vmem, ⟨9, _⟩ => ⟨S5000x64, .f32⟩
  | .local _ .vmem, ⟨10, _⟩ => ⟨S5000x128, .f32⟩
  | .local _ .vmem, ⟨11, _⟩ => ⟨S5000x128, .f32⟩
  | .local _ .vmem, ⟨12, _⟩ => ⟨S128x7, .f32⟩
  | .local _ .vmem, ⟨13, _⟩ => ⟨S5000x7, .f32⟩
  | .local _ .vmem, ⟨14, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_20 : Ref sig .tc := ⟨.hbm, 134, rfl⟩
abbrev main_v95 : Ref sig .tc := ⟨.hbm, 135, rfl⟩
abbrev main_v96 : Ref sig .tc := ⟨.hbm, 136, rfl⟩
abbrev main_c_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_22 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S6x1 : S_.BroadcastsInDim S6x1 (![] : Fin 0 → Fin S6x1.rank)
  shapeCasts_S6x1_S6 : S6x1.ShapeCasts S6
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  inb_S6x64_S6x64_0_0 : ∀ a, (![0, 0] : Fin 2 → Nat) a + S6x64.size a ≤ S6x64.size a
  h_S6x64 : 0 < S6x64.numel
  concatenates_S100000x64_S100000x64_S100000x128_d1 : Shape.Concatenates [S100000x64, S100000x64] S100000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x7_S128x7_0_0 : ∀ a, (![0, 0] : Fin 2 → Nat) a + S128x7.size a ≤ S128x7.size a
  h_S128x7 : 0 < S128x7.numel
  inb_S5000x7_S5000x7_0_0 : ∀ a, (![0, 0] : Fin 2 → Nat) a + S5000x7.size a ≤ S5000x7.size a
  h_S5000x7 : 0 < S5000x7.numel
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x64_S5000x64_1_0_0_1_n_n_wf : DotDims.WF S5000x512 S512x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S6x64_S64x1_S6x1_1_0_0_1_n_n_wf : DotDims.WF S6x64 S64x1 S6x1 [1] [0] [0] [1] [] []
  dot_S5000x6_S6x64_S5000x64_1_0_0_1_n_n_wf : DotDims.WF S5000x6 S6x64 S5000x64 [1] [0] [0] [1] [] []
  dot_S5000x128_S128x7_S5000x7_1_0_0_1_n_n_wf : DotDims.WF S5000x128 S128x7 S5000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x6.size a ≤ S100000x6.size a
  hwx1_0 : ∀ i : grid1.Coords, EltTy.bits .f32 = 32 ∨ (Rect.block (s := S100000x6) S5000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x64.size a ≤ S6x64.size a
  hwx1_1 : ∀ i : grid1.Coords, EltTy.bits .f32 = 32 ∨ (Rect.block (s := S6x64) S6x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x7.size a ≤ S128x7.size a
  hwx2_1 : ∀ i : grid2.Coords, EltTy.bits .f32 = 32 ∨ (Rect.block (s := S128x7) S128x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x7.size a ≤ S100000x7.size a
  hwx2_2 : ∀ i : grid2.Coords, EltTy.bits .f32 = 32 ∨ (Rect.block (s := S100000x7) S5000x7.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S6x64_S64x1_S6x1_1_0_0_1_n_n : DotDims S6x64 S64x1 S6x1 where
  lhsContracting := [1]
  rhsContracting := [0]
  lhsNonContracting := [0]
  rhsNonContracting := [1]
  lhsBatch := []
  rhsBatch := []
  wf := dot_S6x64_S64x1_S6x1_1_0_0_1_n_n_wf
def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf
def dot_S5000x128_S128x7_S5000x7_1_0_0_1_n_n : DotDims S5000x128 S128x7 S5000x7 where
  lhsContracting := [1]
  rhsContracting := [0]
  lhsNonContracting := [0]
  rhsNonContracting := [1]
  lhsBatch := []
  rhsBatch := []
  wf := dot_S5000x128_S128x7_S5000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S5000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S6x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94) S5000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S100000x6 : Shape := ⟨2, ![100000, 6]⟩
abbrev S2x1600000 : Shape := ⟨2, ![2, 1600000]⟩
abbrev S512x64 : Shape := ⟨2, ![512, 64]⟩
abbrev S64 : Shape := ⟨1, ![64]⟩
abbrev S6x64 : Shape := ⟨2, ![6, 64]⟩
abbrev S128x7 : Shape := ⟨2, ![128, 7]⟩
abbrev S7 : Shape := ⟨1, ![7]⟩
abbrev S64x1 : Shape := ⟨2, ![64, 1]⟩
abbrev S_ : Shape := ⟨0, ![]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩
abbrev S6x1 : Shape := ⟨2, ![6, 1]⟩
abbrev S6 : Shape := ⟨1, ![6]⟩
abbrev S1x6 : Shape := ⟨2, ![1, 6]⟩
abbrev S100000x128 : Shape := ⟨2, ![100000, 128]⟩
abbrev S100000x7 : Shape := ⟨2, ![100000, 7]⟩
abbrev S1700000x7 : Shape := ⟨2, ![1700000, 7]⟩
abbrev S1x7 : Shape := ⟨2, ![1, 7]⟩

abbrev nBuf : Space → Nat
  | .hbm => 229
  | .vmem => 0
  | .smem => 0
  | _ => 0

abbrev hbmTy0_0 (i : Nat) : BufTy := match i % 128 with
  | 0 => ⟨S100000x512, .f32⟩
  | 1 => ⟨S100000x6, .f32⟩
  | 2 => ⟨S2x1600000, .i32⟩
  | 3 => ⟨S512x64, .f32⟩
  | 4 => ⟨S64, .f32⟩
  | 5 => ⟨S6x64, .f32⟩
  | 6 => ⟨S64, .f32⟩
  | 7 => ⟨S128x7, .f32⟩
  | 8 => ⟨S7, .f32⟩
  | 9 => ⟨S6x64, .f32⟩
  | 10 => ⟨S64x1, .f32⟩
  | 11 => ⟨S_, .f32⟩
  | 12 => ⟨S_, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S100000, .i32⟩
  | 19 => ⟨S1700000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S6x1, .f32⟩
  | 76 => ⟨S6x1, .f32⟩
  | 77 => ⟨S6x1, .f32⟩
  | 78 => ⟨S_, .f32⟩
  | 79 => ⟨S6x1, .f32⟩
  | 80 => ⟨S6x1, .f32⟩
  | 81 => ⟨S_, .f32⟩
  | 82 => ⟨S6x1, .f32⟩
  | 83 => ⟨S6x1, .f32⟩
  | 84 => ⟨S_, .f32⟩
  | 85 => ⟨S6x1, .f32⟩
  | 86 => ⟨S6x1, .i1⟩
  | 87 => ⟨S_, .f32⟩
  | 88 => ⟨S_, .f32⟩
  | 89 => ⟨S6x1, .f32⟩
  | 90 => ⟨S6x1, .f32⟩
  | 91 => ⟨S6x1, .f32⟩
  | 92 => ⟨S6x1, .f32⟩
  | 93 => ⟨S6, .f32⟩
  | 94 => ⟨S1x6, .f32⟩
  | 95 => ⟨S100000x6, .f32⟩
  | 96 => ⟨S100000x6, .f32⟩
  | 97 => ⟨S100000x64, .f32⟩
  | 98 => ⟨S100000, .i32⟩
  | 99 => ⟨S1700000, .i32⟩
  | 100 => ⟨S1700000, .i32⟩
  | 101 => ⟨S_, .f32⟩
  | 102 => ⟨S1700000, .f32⟩
  | 103 => ⟨S_, .f32⟩
  | 104 => ⟨S100000, .f32⟩
  | 105 => ⟨S1700000x1, .i32⟩
  | 106 => ⟨S100000, .f32⟩
  | 107 => ⟨S_, .f32⟩
  | 108 => ⟨S100000, .f32⟩
  | 109 => ⟨S100000, .i1⟩
  | 110 => ⟨S_, .f32⟩
  | 111 => ⟨S100000, .f32⟩
  | 112 => ⟨S100000, .f32⟩
  | 113 => ⟨S_, .f32⟩
  | 114 => ⟨S_, .f32⟩
  | 115 => ⟨S100000, .f32⟩
  | 116 => ⟨S100000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x512, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x1, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S_, .f32⟩
  | 29 => ⟨S_, .f32⟩
  | 30 => ⟨S_, .f32⟩
  | 31 => ⟨S_, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x128, .f32⟩
  | 43 => ⟨S100000x7, .f32⟩
  | 44 => ⟨S100000, .i32⟩
  | 45 => ⟨S1700000, .i32⟩
  | 46 => ⟨S1700000, .i32⟩
  | 47 => ⟨S_, .f32⟩
  | 48 => ⟨S1700000, .f32⟩
  | 49 => ⟨S_, .f32⟩
  | 50 => ⟨S100000, .f32⟩
  | 51 => ⟨S1700000x1, .i32⟩
  | 52 => ⟨S100000, .f32⟩
  | 53 => ⟨S_, .f32⟩
  | 54 => ⟨S100000, .f32⟩
  | 55 => ⟨S100000, .i1⟩
  | 56 => ⟨S_, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x7, .f32⟩
  | 91 => ⟨S1700000x1, .f32⟩
  | 92 => ⟨S1700000x7, .f32⟩
  | 93 => ⟨S1700000x7, .f32⟩
  | 94 => ⟨S_, .f32⟩
  | 95 => ⟨S100000x7, .f32⟩
  | 96 => ⟨S1700000x1, .i32⟩
  | 97 => ⟨S100000x7, .f32⟩
  | 98 => ⟨S1x7, .f32⟩
  | 99 => ⟨S100000x7, .f32⟩
  | 100 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_cst_18 : Ref sig .tc := ⟨.hbm, 110, rfl⟩
abbrev main_v73 : Ref sig .tc := ⟨.hbm, 111, rfl⟩
abbrev main_v74 : Ref sig .tc := ⟨.hbm, 112, rfl⟩
abbrev main_cst_19 : Ref sig .tc := ⟨.hbm, 113, rfl⟩
abbrev main_call2_v0 : Ref sig .tc := ⟨.hbm, 114, rfl⟩
abbrev main_call2_v1 : Ref sig .tc := ⟨.hbm, 115, rfl⟩
abbrev main_v75 : Ref sig .tc := ⟨.hbm, 116, rfl⟩
abbrev main_c_20 : Ref sig .tc := ⟨.hbm, 117, rfl⟩
abbrev main_v76 : Ref sig .tc := ⟨.hbm, 118, rfl⟩
abbrev main_v77 : Ref sig .tc := ⟨.hbm, 119, rfl⟩
abbrev main_c_21 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_22 : Ref sig .tc := ⟨.hbm, 126, rfl⟩
abbrev main_v83 : Ref sig .tc := ⟨.hbm, 127, rfl⟩
abbrev main_v84 : Ref sig .tc := ⟨.hbm, 128, rfl⟩
abbrev main_c_23 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_24 : Ref sig .tc := ⟨.hbm, 136, rfl⟩
abbrev main_v91 : Ref sig .tc := ⟨.hbm, 137, rfl⟩
abbrev main_v92 : Ref sig .tc := ⟨.hbm, 138, rfl⟩
abbrev main_c_25 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_26 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_27 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_28 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_29 : Ref sig .tc := ⟨.hbm, 175, rfl⟩
abbrev main_v125 : Ref sig .tc := ⟨.hbm, 176, rfl⟩
abbrev main_cst_30 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_31 : Ref sig .tc := ⟨.hbm, 181, rfl⟩
abbrev main_v129 : Ref sig .tc := ⟨.hbm, 182, rfl⟩
abbrev main_v130 : Ref sig .tc := ⟨.hbm, 183, rfl⟩
abbrev main_cst_32 : Ref sig .tc := ⟨.hbm, 184, rfl⟩
abbrev main_v131 : Ref sig .tc := ⟨.hbm, 185, rfl⟩
abbrev main_v132 : Ref sig .tc := ⟨.hbm, 186, rfl⟩
abbrev main_cst_33 : Ref sig .tc := ⟨.hbm, 187, rfl⟩
abbrev main_call3_v0 : Ref sig .tc := ⟨.hbm, 188, rfl⟩
abbrev main_call3_v1 : Ref sig .tc := ⟨.hbm, 189, rfl⟩
abbrev main_v133 : Ref sig .tc := ⟨.hbm, 190, rfl⟩
abbrev main_c_34 : Ref sig .tc := ⟨.hbm, 191, rfl⟩
abbrev main_v134 : Ref sig .tc := ⟨.hbm, 192, rfl⟩
abbrev main_v135 : Ref sig .tc := ⟨.hbm, 193, rfl⟩
abbrev main_c_35 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_c_36 : Ref sig .tc := ⟨.hbm, 200, rfl⟩
abbrev main_v141 : Ref sig .tc := ⟨.hbm, 201, rfl⟩
abbrev main_v142 : Ref sig .tc := ⟨.hbm, 202, rfl⟩
abbrev main_c_37 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_c_38 : Ref sig .tc := ⟨.hbm, 210, rfl⟩
abbrev main_v149 : Ref sig .tc := ⟨.hbm, 211, rfl⟩
abbrev main_v150 : Ref sig .tc := ⟨.hbm, 212, rfl⟩
abbrev main_c_39 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_40 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S6x1 : S_.BroadcastsInDim S6x1 (![] : Fin 0 → Fin S6x1.rank)
  shapeCasts_S6x1_S6 : S6x1.ShapeCasts S6
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  concatenates_S100000x64_S100000x64_S100000x128_d1 : Shape.Concatenates [S100000x64, S100000x64] S100000x128 1
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x64_S100000x64_1_0_0_1_n_n_wf : DotDims.WF S100000x512 S512x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S6x64_S64x1_S6x1_1_0_0_1_n_n_wf : DotDims.WF S6x64 S64x1 S6x1 [1] [0] [0] [1] [] []
  dot_S100000x6_S6x64_S100000x64_1_0_0_1_n_n_wf : DotDims.WF S100000x6 S6x64 S100000x64 [1] [0] [0] [1] [] []
  dot_S100000x128_S128x7_S100000x7_1_0_0_1_n_n_wf : DotDims.WF S100000x128 S128x7 S100000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S6x64_S64x1_S6x1_1_0_0_1_n_n : DotDims S6x64 S64x1 S6x1 where
  lhsContracting := [1]
  rhsContracting := [0]
  lhsNonContracting := [0]
  rhsNonContracting := [1]
  lhsBatch := []
  rhsBatch := []
  wf := dot_S6x64_S64x1_S6x1_1_0_0_1_n_n_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def dot_S100000x128_S128x7_S100000x7_1_0_0_1_n_n : DotDims S100000x128 S128x7 S100000x7 where
  lhsContracting := [1]
  rhsContracting := [0]
  lhsNonContracting := [0]
  rhsNonContracting := [1]
  lhsBatch := []
  rhsBatch := []
  wf := dot_S100000x128_S128x7_S100000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

class Facts : Prop extends Facts₀ where

variable [Facts]
-- ==== Proof.KRun.lean ====
/-
  The idealized kernel program, run from the launch to the return, with its three RESULT buffers read off the final
  thread state: @main is eleven segments (host stretches and three row-tiled matrix products), the buffer contents at
  each boundary are the fold `Gen.W0 … Gen.W11`, and at the return every unscoped buffer holds `Gen.W11`. So each result
  ends at `Gen.W11` read at its buffer, and every argument ends as launched.
-/
import proofs.«168757_j89249420411435_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the three results end at the last boundary's
    contents `Gen.W11` (the fold of every host stretch and every region's write-backs over the launch memory), and the
    arguments end as launched. -/
theorem run : θ_run defs (onTc (τ := τ) (main (F := F))) ⟨m, fun _ => 0, ρ⟩ (fun r => ∀ c : Dev nD,
      r.2.mem ((c.tc : Thread nD τ).loc main_v47) = W11 m ρ c (Proc.devRef .tc main_v47)
      ∧ r.2.mem ((c.tc : Thread nD τ).loc main_v79) = W11 m ρ c (Proc.devRef .tc main_v79)
      ∧ r.2.mem ((c.tc : Thread nD τ).loc main_v110) = W11 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v47 (by decide)),
       h c _ (mem_uc main_v79 (by decide)),
       h c _ (mem_uc main_v110 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.KRun

end
-- ==== Proof.Prod0.lean ====
/-
  Region 0 of the kernel program is a row-tiled matrix product: the grid has twenty points, point `t` reads rows
  `5000 t … 5000 t + 4999` of the left operand (a [100000, 512] array) and the whole [512, 64] right operand, multiplies them
  into a zero accumulator (the roundings to bf16 on the way in are the identity on extended reals) and writes rows
  `5000 t … 5000 t + 4999` of the [100000, 64] output. Entry (i, j) of the block's product is the sum over k of
  left(5000 t + i, k) · right(k, j), which is entry (5000 t + i, j) of the whole product; the twenty row blocks cover the
  output, so the output array ends as the whole product — the host's `dot_general` of the two arrays as the region finds them.
-/
import proofs.«168757_j89249420411435_1_alg».proof.Proof.Gen.KernelIdeal.Frame
import proofs.«168757_j89249420411435_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Prod0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block's product at an entry -/

theorem lhs_0 (i : S5000x64.Idx) (q : dot_S5000x512_S512x64_S5000x64_1_0_0_1_n_n.contr.Idx) : (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem lhs_1 (i : S5000x64.Idx) (q : dot_S5000x512_S512x64_S5000x64_1_0_0_1_n_n.contr.Idx) : (dot_S5000x512_S512x64_S5000x64_1_0_0_1_n_n.lhsIdx i q 1).val = (q ⟨0, by decide⟩).val :=
  dot_S5000x512_S512x64_S5000x64_1_0_0_1_n_n.lhsIdx_val_of_single rfl i q
theorem rhs_0 (i : S5000x64.Idx) (q : dot_S5000x512_S512x64_S5000x64_1_0_0_1_n_n.contr.Idx) : (dot_S5000x512_S512x64_S5000x64_1_0_0_1_n_n.rhsIdx i q 0).val = (q ⟨0, by decide⟩).val :=
  dot_S5000x512_S512x64_S5000x64_1_0_0_1_n_n.rhsIdx_val_of_single rfl i q
theorem rhs_1 (i : S5000x64.Idx) (q : dot_S5000x512_S512x64_S5000x64_1_0_0_1_n_n.contr.Idx) : (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- Entry (p, q) of what the body stores: the sum over the contracted axis of left(p, k) · right(k, q). -/
theorem pay_apply (x0 : FVec Ideal S5000x512 .f32) (x1 : FVec Ideal S512x64 .f32) (p : Fin 5000) (q : Fin 64) :
    (k0_pay1 x0 x1 : FVec Ideal S5000x64 .f32) (ix2 p q) = ∑ k : Fin 512, x0 (ix2 p k) * x1 (ix2 k q) := by
  show FloatOps.matmul dot_S5000x512_S512x64_S5000x64_1_0_0_1_n_n none x0 x1 (constant S5000x64 .f32 0x00000000#32) (ix2 p q) = _
  rw [Ideal.matmul_constant_zero_apply, ← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx (ix2 p q) ((ValueIdx.contrEquiv1 dot_S5000x512_S512x64_S5000x64_1_0_0_1_n_n 512 rfl rfl).symm k) = ix2 p k := funext fun a => Fin.ext (by
    match a with
    | ⟨0, _⟩ => exact lhs_0 _ _
    | ⟨1, _⟩ => exact (lhs_1 _ _).trans hk)
  have er : dot_S5000x512_S512x64_S5000x64_1_0_0_1_n_n.rhsIdx (ix2 p q) ((ValueIdx.contrEquiv1 dot_S5000x512_S512x64_S5000x64_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The whole product at an entry -/

/-- The two arrays as the region finds them. -/
abbrev left (c : Dev nD) : FVec Ideal S100000x512 .f32 := V c main_arg0
abbrev right (c : Dev nD) : FVec Ideal S512x64 .f32 := V c main_arg3

/-- The host's product of two arrays, entry (r, q): the sum over k of x(r, k) · w(k, q). -/
theorem host_apply (x : FVec Ideal S100000x512 .f32) (w : FVec Ideal S512x64 .f32) (rr : Fin 100000) (q : Fin 64) :
    (Host.dotGeneral (F := Ideal) Cert.ReferenceIdeal.dot_S100000x512_S512x64_S100000x64_1_0_0_1_n_n none x w : FVec Ideal S100000x64 .f32) (ix2 rr q) = ∑ k : Fin 512, x (ix2 rr k) * w (ix2 k q) := by
  simp only [Host.dotGeneral]
  rw [Ideal.dotGeneral_apply, ← Equiv.sum_comp (ValueIdx.contrEquiv1 Cert.ReferenceIdeal.dot_S100000x512_S512x64_S100000x64_1_0_0_1_n_n 512 rfl rfl).symm]
  refine Finset.sum_congr rfl fun k _ => ?_
  have hk := ValueIdx.contrEquiv1_symm_val Cert.ReferenceIdeal.dot_S100000x512_S512x64_S100000x64_1_0_0_1_n_n 512 rfl rfl k
  have el : Cert.ReferenceIdeal.dot_S100000x512_S512x64_S100000x64_1_0_0_1_n_n.lhsIdx (ix2 rr q) ((ValueIdx.contrEquiv1 Cert.ReferenceIdeal.dot_S100000x512_S512x64_S100000x64_1_0_0_1_n_n 512 rfl rfl).symm k) = ix2 rr k := funext fun a => Fin.ext (by
    match a with
    | ⟨0, _⟩ => exact Cert.ReferenceIdeal.ReadP.lhs_main_v4_0 _ _
    | ⟨1, _⟩ => exact (Cert.ReferenceIdeal.ReadP.lhs_main_v4_1 _ _).trans hk)
  have er : Cert.ReferenceIdeal.dot_S100000x512_S512x64_S100000x64_1_0_0_1_n_n.rhsIdx (ix2 rr q) ((ValueIdx.contrEquiv1 Cert.ReferenceIdeal.dot_S100000x512_S512x64_S100000x64_1_0_0_1_n_n 512 rfl rfl).symm k) = ix2 k q := funext fun a => Fin.ext (by
    match a with
    | ⟨0, _⟩ => exact (Cert.ReferenceIdeal.ReadP.rhs_main_v4_0 _ _).trans hk
    | ⟨1, _⟩ => exact Cert.ReferenceIdeal.ReadP.rhs_main_v4_1 _ _)
  rw [el, er]

/-- The host's product of the two arrays the region finds: the function the output array ends holding. -/
def whole (c : Dev nD) : FVec Ideal S100000x64 .f32 :=
  Host.dotGeneral (F := Ideal) Cert.ReferenceIdeal.dot_S100000x512_S512x64_S100000x64_1_0_0_1_n_n none (left V c) (right V c)

/-! ## The blocks -/

/-- Where the three windows' blocks sit at point `t`: row block `t` of the left operand and of the output, the one block
    of the right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `5000 t …` of the left array. -/
theorem left_read (c : Dev nD) (t : Fin cfg0.N) (y : S5000x512.Idx) (k : S100000x512.Idx)
    (h0 : (k 0).val = 5000 * t.val + (y 0).val) (h1 : (k 1).val = (y 1).val) :
    (iblk0 V c 0 t : FVec Ideal S5000x512 .f32) y = left V c k := by
  obtain ⟨e0, e1, -, -, -, -⟩ := idx_facts t
  unfold iblk0
  rw [View.read_apply]
  show left V c _ = left V c k
  refine congrArg (left V c) ?_
  funext a
  apply Fin.ext
  match a with
  | ⟨0, _⟩ => show win0_0.index t 0 * 5000 + 1 * (y 0).val = (k 0).val; rw [e0, h0]; omega
  | ⟨1, _⟩ => show win0_0.index t 1 * 512 + 1 * (y 1).val = (k 1).val; rw [e1, h1]; omega

/-- The right window's block at any point is the whole right array. -/
theorem right_read (c : Dev nD) (t : Fin cfg0.N) (y : S512x64.Idx) :
    (iblk0 V c 1 t : FVec Ideal S512x64 .f32) y = right V c y := by
  obtain ⟨-, -, e0, e1, -, -⟩ := idx_facts t
  unfold iblk0
  rw [View.read_apply]
  show right V c _ = right V c y
  refine congrArg (right V c) ?_
  funext a
  apply Fin.ext
  match a with
  | ⟨0, _⟩ => show win0_1.index t 0 * 512 + 1 * (y 0).val = (y 0).val; rw [e0]; omega
  | ⟨1, _⟩ => show win0_1.index t 1 * 64 + 1 * (y 1).val = (y 1).val; rw [e1]; omega

/-- The row of the whole array that row `p` of point `t`'s block is. -/
def rowOf (t : Fin cfg0.N) (p : Fin 5000) : Fin 100000 :=
  ⟨5000 * t.val + p.val, by have := t.isLt; have hN : cfg0.N = 20 := N_0; have := p.isLt; omega⟩

/-- What point `t` writes back is row block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨-, -, -, -, e0, e1⟩ := idx_facts t
  refine funext fun (j : S5000x64.Idx) => ?_
  obtain ⟨p, q, rfl⟩ : ∃ (p : Fin 5000) (q : Fin 64), j = ix2 p q := ⟨j 0, j 1, eq_ix2 j⟩
  show (k0_pay1 (iblk0 V c 0 t) (iblk0 V c 1 t) : FVec Ideal S5000x64 .f32) (ix2 p q) = whole V c (((cfg0.win 2).blk t).view.emb (ix2 p q))
  have hemb : (((cfg0.win 2).blk t).view.emb (ix2 p q) : S100000x64.Idx) = ix2 (rowOf t p) q := by
    funext a
    apply Fin.ext
    match a with
    | ⟨0, _⟩ => show win0_2.index t 0 * 5000 + 1 * p.val = 5000 * t.val + p.val; rw [e0]; omega
    | ⟨1, _⟩ => show win0_2.index t 1 * 64 + 1 * q.val = q.val; rw [e1]; omega
  rw [hemb]
  refine (pay_apply _ _ p q).trans ((host_apply (left V c) (right V c) (rowOf t p) q).trans ?_).symm
  refine Finset.sum_congr rfl fun k _ => ?_
  exact (congrArg₂ (fun (a b : Ideal .f32) => a * b) (left_read V c t (ix2 p k) (ix2 (rowOf t p) k) rfl rfl) (right_read V c t (ix2 k q))).symm

/-! ## The cover -/

theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row `r` of the output lies in the block of point `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_2 _, ?_⟩
  rw [mem_blk]
  obtain ⟨-, -, -, -, e0, e1⟩ := idx_facts ⟨(i 0).val / 5000, hlt⟩
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, hlt⟩ 1 * 64 ≤ (i 1).val ∧ (i 1).val < win0_2.index ⟨(i 0).val / 5000, hlt⟩ 1 * 64 + 64
    rw [e1]; omega

/-- The output array after the region is the whole product of the two arrays the region found. -/
theorem arr (c : Dev nD) : (dat0 V c).arrAt 2 cfg0.N = whole V c :=
  (dat0 V c).arrAt_eq_of_cover 2 (whole V c) (fun t _ => flushed_eq V c t) (cover)

end Cert.KernelIdeal.Prod0

end
-- ==== Proof.FoldA.lean ====
/-
  The buffer contents when the first matrix product is entered, and when it is left.
  Before it the host computes, from the edge list alone, the source and target index vectors (the edges followed by one
  self-loop per node), each node's degree (a scatter-add of ones at the targets), its inverse square root where the degree is
  positive, and the edge weight: the product of the two endpoints' inverse square roots. These are the same operations,
  in the same order, as the reference's first graph convolution performs, so each buffer holds the reference's term.
  The product then leaves, in its output buffer, the host's matrix product of the feature array and the first weight.
-/
import proofs.«168757_j89249420411435_1_alg».proof.Proof.Gen.KernelIdeal.Frame
import proofs.«168757_j89249420411435_1_alg».proof.Proof.RefRead
import proofs.«168757_j89249420411435_1_alg».proof.Proof.Prod0
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch: the index vectors, the degree's two uses -/

theorem w1_v5 : W1 m ρ c (Proc.devRef .tc main_v5) = Cert.ReferenceIdeal.ReadP.val_main_v6 (F := Ideal) (m ((c : Thread nD τ).loc main_arg2)) := by
  show StableHlo.after hostOps0 (W0 m ρ c) (Proc.devRef .tc main_v5) = _
  after_results_simp
  try rfl
theorem w1_v6 : W1 m ρ c (Proc.devRef .tc main_v6) = Cert.ReferenceIdeal.ReadP.val_main_v7 (F := Ideal) (m ((c : Thread nD τ).loc main_arg2)) := by
  show StableHlo.after hostOps0 (W0 m ρ c) (Proc.devRef .tc main_v6) = _
  after_results_simp
  try rfl
theorem w1_v12 : W1 m ρ c (Proc.devRef .tc main_v12) = Cert.ReferenceIdeal.ReadP.val_main_v13 (F := Ideal) (m ((c : Thread nD τ).loc main_arg2)) := by
  show StableHlo.after hostOps0 (W0 m ρ c) (Proc.devRef .tc main_v12) = _
  after_results_simp
  try rfl
theorem w1_v14 : W1 m ρ c (Proc.devRef .tc main_v14) = Cert.ReferenceIdeal.ReadP.val_main_v15 (F := Ideal) (m ((c : Thread nD τ).loc main_arg2)) := by
  show StableHlo.after hostOps0 (W0 m ρ c) (Proc.devRef .tc main_v14) = _
  after_results_simp
  try rfl
theorem w1_cst_3 : W1 m ρ c (Proc.devRef .tc main_cst_3) = Cert.ReferenceIdeal.ReadP.val_main_cst_3 (F := Ideal) := by
  show StableHlo.after hostOps0 (W0 m ρ c) (Proc.devRef .tc main_cst_3) = _
  after_results_simp
  try rfl
theorem w1_arg0 : W1 m ρ c (Proc.devRef .tc main_arg0) = (m ((c : Thread nD τ).loc main_arg0)) := by
  show StableHlo.after hostOps0 (W0 m ρ c) (Proc.devRef .tc main_arg0) = _
  after_results_simp
  try rfl
theorem w1_arg1 : W1 m ρ c (Proc.devRef .tc main_arg1) = (m ((c : Thread nD τ).loc main_arg1)) := by
  show StableHlo.after hostOps0 (W0 m ρ c) (Proc.devRef .tc main_arg1) = _
  after_results_simp
  try rfl
theorem w1_arg3 : W1 m ρ c (Proc.devRef .tc main_arg3) = (m ((c : Thread nD τ).loc main_arg3)) := by
  show StableHlo.after hostOps0 (W0 m ρ c) (Proc.devRef .tc main_arg3) = _
  after_results_simp
  try rfl
theorem w1_arg4 : W1 m ρ c (Proc.devRef .tc main_arg4) = (m ((c : Thread nD τ).loc main_arg4)) := by
  show StableHlo.after hostOps0 (W0 m ρ c) (Proc.devRef .tc main_arg4) = _
  after_results_simp
  try rfl
theorem w1_arg5 : W1 m ρ c (Proc.devRef .tc main_arg5) = (m ((c : Thread nD τ).loc main_arg5)) := by
  show StableHlo.after hostOps0 (W0 m ρ c) (Proc.devRef .tc main_arg5) = _
  after_results_simp
  try rfl
theorem w1_arg6 : W1 m ρ c (Proc.devRef .tc main_arg6) = (m ((c : Thread nD τ).loc main_arg6)) := by
  show StableHlo.after hostOps0 (W0 m ρ c) (Proc.devRef .tc main_arg6) = _
  after_results_simp
  try rfl
theorem w1_arg7 : W1 m ρ c (Proc.devRef .tc main_arg7) = (m ((c : Thread nD τ).loc main_arg7)) := by
  show StableHlo.after hostOps0 (W0 m ρ c) (Proc.devRef .tc main_arg7) = _
  after_results_simp
  try rfl
theorem w1_arg8 : W1 m ρ c (Proc.devRef .tc main_arg8) = (m ((c : Thread nD τ).loc main_arg8)) := by
  show StableHlo.after hostOps0 (W0 m ρ c) (Proc.devRef .tc main_arg8) = _
  after_results_simp
  try rfl
theorem w1_arg9 : W1 m ρ c (Proc.devRef .tc main_arg9) = (m ((c : Thread nD τ).loc main_arg9)) := by
  show StableHlo.after hostOps0 (W0 m ρ c) (Proc.devRef .tc main_arg9) = _
  after_results_simp
  try rfl
theorem w1_arg10 : W1 m ρ c (Proc.devRef .tc main_arg10) = (m ((c : Thread nD τ).loc main_arg10)) := by
  show StableHlo.after hostOps0 (W0 m ρ c) (Proc.devRef .tc main_arg10) = _
  after_results_simp
  try rfl
theorem w1_arg11 : W1 m ρ c (Proc.devRef .tc main_arg11) = (m ((c : Thread nD τ).loc main_arg11)) := by
  show StableHlo.after hostOps0 (W0 m ρ c) (Proc.devRef .tc main_arg11) = _
  after_results_simp
  try rfl
theorem w1_arg12 : W1 m ρ c (Proc.devRef .tc main_arg12) = (m ((c : Thread nD τ).loc main_arg12)) := by
  show StableHlo.after hostOps0 (W0 m ρ c) (Proc.devRef .tc main_arg12) = _
  after_results_simp
  try rfl

/-! ## After the choice between the inverse square root and zero -/

/-- The choice, read at any contents: where the degree is positive its inverse square root, elsewhere the constant. -/
theorem choice0 (V : Valuation τ sig (Elt Ideal)) (x12 : (⟨S100000, .i1⟩ : BufTy).Contents (Elt Ideal)) (x14 : (⟨S100000, .f32⟩ : BufTy).Contents (Elt Ideal)) (xc : (⟨S_, .f32⟩ : BufTy).Contents (Elt Ideal))
    (h0 : V (Proc.devRef .tc main_v12) = x12) (h1 : V (Proc.devRef .tc main_v14) = x14) (h2 : V (Proc.devRef .tc main_cst_3) = xc) :
    StableHlo.after hostOps0_1 V (Proc.devRef .tc main_v15) = select x12 x14 (broadcastInDim S100000 ![] bcast_S_S100000 (id xc)) := by
  after_results_simp
  simp only [h0, h1, h2]
  rfl
theorem w2_v15 : W2 m ρ c (Proc.devRef .tc main_v15) = Cert.ReferenceIdeal.ReadP.val_main_v16 (F := Ideal) (m ((c : Thread nD τ).loc main_arg2)) :=
  (choice0 (W1 m ρ c) _ _ _ (w1_v12 m ρ c) (w1_v14 m ρ c) (w1_cst_3 m ρ c)).trans (by
    unfold Cert.ReferenceIdeal.ReadP.val_main_v16 Cert.ReferenceIdeal.ReadP.val_main_call0_v1 Cert.ReferenceIdeal.ReadP.val_main_call0_v0
    rfl)
theorem w2_v5 : W2 m ρ c (Proc.devRef .tc main_v5) = Cert.ReferenceIdeal.ReadP.val_main_v6 (F := Ideal) (m ((c : Thread nD τ).loc main_arg2)) := by
  show StableHlo.after hostOps0_1 (W1 m ρ c) (Proc.devRef .tc main_v5) = _
  have h0 := w1_v5 m ρ c
  generalize W1 m ρ c = V at h0 ⊢
  after_results_simp
  exact h0
theorem w2_v6 : W2 m ρ c (Proc.devRef .tc main_v6) = Cert.ReferenceIdeal.ReadP.val_main_v7 (F := Ideal) (m ((c : Thread nD τ).loc main_arg2)) := by
  show StableHlo.after hostOps0_1 (W1 m ρ c) (Proc.devRef .tc main_v6) = _
  have h0 := w1_v6 m ρ c
  generalize W1 m ρ c = V at h0 ⊢
  after_results_simp
  exact h0
theorem w2_arg0 : W2 m ρ c (Proc.devRef .tc main_arg0) = (m ((c : Thread nD τ).loc main_arg0)) := by
  show StableHlo.after hostOps0_1 (W1 m ρ c) (Proc.devRef .tc main_arg0) = _
  have h0 := w1_arg0 m ρ c
  generalize W1 m ρ c = V at h0 ⊢
  after_results_simp
  exact h0
theorem w2_arg1 : W2 m ρ c (Proc.devRef .tc main_arg1) = (m ((c : Thread nD τ).loc main_arg1)) := by
  show StableHlo.after hostOps0_1 (W1 m ρ c) (Proc.devRef .tc main_arg1) = _
  have h0 := w1_arg1 m ρ c
  generalize W1 m ρ c = V at h0 ⊢
  after_results_simp
  exact h0
theorem w2_arg3 : W2 m ρ c (Proc.devRef .tc main_arg3) = (m ((c : Thread nD τ).loc main_arg3)) := by
  show StableHlo.after hostOps0_1 (W1 m ρ c) (Proc.devRef .tc main_arg3) = _
  have h0 := w1_arg3 m ρ c
  generalize W1 m ρ c = V at h0 ⊢
  after_results_simp
  exact h0
theorem w2_arg4 : W2 m ρ c (Proc.devRef .tc main_arg4) = (m ((c : Thread nD τ).loc main_arg4)) := by
  show StableHlo.after hostOps0_1 (W1 m ρ c) (Proc.devRef .tc main_arg4) = _
  have h0 := w1_arg4 m ρ c
  generalize W1 m ρ c = V at h0 ⊢
  after_results_simp
  exact h0
theorem w2_arg5 : W2 m ρ c (Proc.devRef .tc main_arg5) = (m ((c : Thread nD τ).loc main_arg5)) := by
  show StableHlo.after hostOps0_1 (W1 m ρ c) (Proc.devRef .tc main_arg5) = _
  have h0 := w1_arg5 m ρ c
  generalize W1 m ρ c = V at h0 ⊢
  after_results_simp
  exact h0
theorem w2_arg6 : W2 m ρ c (Proc.devRef .tc main_arg6) = (m ((c : Thread nD τ).loc main_arg6)) := by
  show StableHlo.after hostOps0_1 (W1 m ρ c) (Proc.devRef .tc main_arg6) = _
  have h0 := w1_arg6 m ρ c
  generalize W1 m ρ c = V at h0 ⊢
  after_results_simp
  exact h0
theorem w2_arg7 : W2 m ρ c (Proc.devRef .tc main_arg7) = (m ((c : Thread nD τ).loc main_arg7)) := by
  show StableHlo.after hostOps0_1 (W1 m ρ c) (Proc.devRef .tc main_arg7) = _
  have h0 := w1_arg7 m ρ c
  generalize W1 m ρ c = V at h0 ⊢
  after_results_simp
  exact h0
theorem w2_arg8 : W2 m ρ c (Proc.devRef .tc main_arg8) = (m ((c : Thread nD τ).loc main_arg8)) := by
  show StableHlo.after hostOps0_1 (W1 m ρ c) (Proc.devRef .tc main_arg8) = _
  have h0 := w1_arg8 m ρ c
  generalize W1 m ρ c = V at h0 ⊢
  after_results_simp
  exact h0
theorem w2_arg9 : W2 m ρ c (Proc.devRef .tc main_arg9) = (m ((c : Thread nD τ).loc main_arg9)) := by
  show StableHlo.after hostOps0_1 (W1 m ρ c) (Proc.devRef .tc main_arg9) = _
  have h0 := w1_arg9 m ρ c
  generalize W1 m ρ c = V at h0 ⊢
  after_results_simp
  exact h0
theorem w2_arg10 : W2 m ρ c (Proc.devRef .tc main_arg10) = (m ((c : Thread nD τ).loc main_arg10)) := by
  show StableHlo.after hostOps0_1 (W1 m ρ c) (Proc.devRef .tc main_arg10) = _
  have h0 := w1_arg10 m ρ c
  generalize W1 m ρ c = V at h0 ⊢
  after_results_simp
  exact h0
theorem w2_arg11 : W2 m ρ c (Proc.devRef .tc main_arg11) = (m ((c : Thread nD τ).loc main_arg11)) := by
  show StableHlo.after hostOps0_1 (W1 m ρ c) (Proc.devRef .tc main_arg11) = _
  have h0 := w1_arg11 m ρ c
  generalize W1 m ρ c = V at h0 ⊢
  after_results_simp
  exact h0
theorem w2_arg12 : W2 m ρ c (Proc.devRef .tc main_arg12) = (m ((c : Thread nD τ).loc main_arg12)) := by
  show StableHlo.after hostOps0_1 (W1 m ρ c) (Proc.devRef .tc main_arg12) = _
  have h0 := w1_arg12 m ρ c
  generalize W1 m ρ c = V at h0 ⊢
  after_results_simp
  exact h0

/-! ## At the first product's entry: the edge weights -/

theorem w3_v30 : W3 m ρ c (Proc.devRef .tc main_v30) = Cert.ReferenceIdeal.ReadP.val_main_v31 (F := Ideal) (m ((c : Thread nD τ).loc main_arg2)) := by
  show StableHlo.after hostOps0_2 (W2 m ρ c) (Proc.devRef .tc main_v30) = _
  have h0 := w2_v15 m ρ c
  have h1 := w2_v5 m ρ c
  have h2 := w2_v6 m ρ c
  generalize W2 m ρ c = V at h0 h1 h2 ⊢
  after_results_simp
  simp only [h0, h1, h2]
  rfl
theorem w3_v5 : W3 m ρ c (Proc.devRef .tc main_v5) = Cert.ReferenceIdeal.ReadP.val_main_v6 (F := Ideal) (m ((c : Thread nD τ).loc main_arg2)) := by
  show StableHlo.after hostOps0_2 (W2 m ρ c) (Proc.devRef .tc main_v5) = _
  have h0 := w2_v5 m ρ c
  generalize W2 m ρ c = V at h0 ⊢
  after_results_simp
  exact h0
theorem w3_v6 : W3 m ρ c (Proc.devRef .tc main_v6) = Cert.ReferenceIdeal.ReadP.val_main_v7 (F := Ideal) (m ((c : Thread nD τ).loc main_arg2)) := by
  show StableHlo.after hostOps0_2 (W2 m ρ c) (Proc.devRef .tc main_v6) = _
  have h0 := w2_v6 m ρ c
  generalize W2 m ρ c = V at h0 ⊢
  after_results_simp
  exact h0
theorem w3_arg0 : W3 m ρ c (Proc.devRef .tc main_arg0) = (m ((c : Thread nD τ).loc main_arg0)) := by
  show StableHlo.after hostOps0_2 (W2 m ρ c) (Proc.devRef .tc main_arg0) = _
  have h0 := w2_arg0 m ρ c
  generalize W2 m ρ c = V at h0 ⊢
  after_results_simp
  exact h0
theorem w3_arg1 : W3 m ρ c (Proc.devRef .tc main_arg1) = (m ((c : Thread nD τ).loc main_arg1)) := by
  show StableHlo.after hostOps0_2 (W2 m ρ c) (Proc.devRef .tc main_arg1) = _
  have h0 := w2_arg1 m ρ c
  generalize W2 m ρ c = V at h0 ⊢
  after_results_simp
  exact h0
theorem w3_arg3 : W3 m ρ c (Proc.devRef .tc main_arg3) = (m ((c : Thread nD τ).loc main_arg3)) := by
  show StableHlo.after hostOps0_2 (W2 m ρ c) (Proc.devRef .tc main_arg3) = _
  have h0 := w2_arg3 m ρ c
  generalize W2 m ρ c = V at h0 ⊢
  after_results_simp
  exact h0
theorem w3_arg4 : W3 m ρ c (Proc.devRef .tc main_arg4) = (m ((c : Thread nD τ).loc main_arg4)) := by
  show StableHlo.after hostOps0_2 (W2 m ρ c) (Proc.devRef .tc main_arg4) = _
  have h0 := w2_arg4 m ρ c
  generalize W2 m ρ c = V at h0 ⊢
  after_results_simp
  exact h0
theorem w3_arg5 : W3 m ρ c (Proc.devRef .tc main_arg5) = (m ((c : Thread nD τ).loc main_arg5)) := by
  show StableHlo.after hostOps0_2 (W2 m ρ c) (Proc.devRef .tc main_arg5) = _
  have h0 := w2_arg5 m ρ c
  generalize W2 m ρ c = V at h0 ⊢
  after_results_simp
  exact h0
theorem w3_arg6 : W3 m ρ c (Proc.devRef .tc main_arg6) = (m ((c : Thread nD τ).loc main_arg6)) := by
  show StableHlo.after hostOps0_2 (W2 m ρ c) (Proc.devRef .tc main_arg6) = _
  have h0 := w2_arg6 m ρ c
  generalize W2 m ρ c = V at h0 ⊢
  after_results_simp
  exact h0
theorem w3_arg7 : W3 m ρ c (Proc.devRef .tc main_arg7) = (m ((c : Thread nD τ).loc main_arg7)) := by
  show StableHlo.after hostOps0_2 (W2 m ρ c) (Proc.devRef .tc main_arg7) = _
  have h0 := w2_arg7 m ρ c
  generalize W2 m ρ c = V at h0 ⊢
  after_results_simp
  exact h0
theorem w3_arg8 : W3 m ρ c (Proc.devRef .tc main_arg8) = (m ((c : Thread nD τ).loc main_arg8)) := by
  show StableHlo.after hostOps0_2 (W2 m ρ c) (Proc.devRef .tc main_arg8) = _
  have h0 := w2_arg8 m ρ c
  generalize W2 m ρ c = V at h0 ⊢
  after_results_simp
  exact h0
theorem w3_arg9 : W3 m ρ c (Proc.devRef .tc main_arg9) = (m ((c : Thread nD τ).loc main_arg9)) := by
  show StableHlo.after hostOps0_2 (W2 m ρ c) (Proc.devRef .tc main_arg9) = _
  have h0 := w2_arg9 m ρ c
  generalize W2 m ρ c = V at h0 ⊢
  after_results_simp
  exact h0
theorem w3_arg10 : W3 m ρ c (Proc.devRef .tc main_arg10) = (m ((c : Thread nD τ).loc main_arg10)) := by
  show StableHlo.after hostOps0_2 (W2 m ρ c) (Proc.devRef .tc main_arg10) = _
  have h0 := w2_arg10 m ρ c
  generalize W2 m ρ c = V at h0 ⊢
  after_results_simp
  exact h0
theorem w3_arg11 : W3 m ρ c (Proc.devRef .tc main_arg11) = (m ((c : Thread nD τ).loc main_arg11)) := by
  show StableHlo.after hostOps0_2 (W2 m ρ c) (Proc.devRef .tc main_arg11) = _
  have h0 := w2_arg11 m ρ c
  generalize W2 m ρ c = V at h0 ⊢
  after_results_simp
  exact h0
theorem w3_arg12 : W3 m ρ c (Proc.devRef .tc main_arg12) = (m ((c : Thread nD τ).loc main_arg12)) := by
  show StableHlo.after hostOps0_2 (W2 m ρ c) (Proc.devRef .tc main_arg12) = _
  have h0 := w2_arg12 m ρ c
  generalize W2 m ρ c = V at h0 ⊢
  after_results_simp
  exact h0

/-! ## At the first product's exit -/

theorem w4_v31 : W4 m ρ c (Proc.devRef .tc main_v31) = Cert.ReferenceIdeal.ReadP.val_main_v4 (F := Ideal) (m ((c : Thread nD τ).loc main_arg0)) (m ((c : Thread nD τ).loc main_arg3)) := by
  refine (W4_arr m ρ c 2).trans ((Cert.KernelIdeal.Prod0.arr (V3 m ρ) c).trans ?_)
  unfold Cert.KernelIdeal.Prod0.whole Cert.ReferenceIdeal.ReadP.val_main_v4
  exact congrArg₂ (fun x y => Host.dotGeneral (F := Ideal) Cert.ReferenceIdeal.dot_S100000x512_S512x64_S100000x64_1_0_0_1_n_n none x y) (w3_arg0 m ρ c) (w3_arg3 m ρ c)
theorem w4_v5 : W4 m ρ c (Proc.devRef .tc main_v5) = Cert.ReferenceIdeal.ReadP.val_main_v6 (F := Ideal) (m ((c : Thread nD τ).loc main_arg2)) :=
  (W4_of_ne m ρ c main_v5 (by decide)).trans (w3_v5 m ρ c)
theorem w4_v6 : W4 m ρ c (Proc.devRef .tc main_v6) = Cert.ReferenceIdeal.ReadP.val_main_v7 (F := Ideal) (m ((c : Thread nD τ).loc main_arg2)) :=
  (W4_of_ne m ρ c main_v6 (by decide)).trans (w3_v6 m ρ c)
theorem w4_v30 : W4 m ρ c (Proc.devRef .tc main_v30) = Cert.ReferenceIdeal.ReadP.val_main_v31 (F := Ideal) (m ((c : Thread nD τ).loc main_arg2)) :=
  (W4_of_ne m ρ c main_v30 (by decide)).trans (w3_v30 m ρ c)
theorem w4_arg1 : W4 m ρ c (Proc.devRef .tc main_arg1) = (m ((c : Thread nD τ).loc main_arg1)) :=
  (W4_of_ne m ρ c main_arg1 (by decide)).trans (w3_arg1 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)

end Cert.KernelIdeal.Fold

end
-- ==== Proof.Prod1.lean ====
/-
  Region 1 of the kernel program is a row-tiled matrix product: the grid has twenty points, point `t` reads rows
  `5000 t … 5000 t + 4999` of the left operand (a [100000, 6] array) and the whole [6, 64] right operand, multiplies them
  into a zero accumulator (the roundings to bf16 on the way in are the identity on extended reals) and writes rows
  `5000 t … 5000 t + 4999` of the [100000, 64] output. Entry (i, j) of the block's product is the sum over k of
  left(5000 t + i, k) · right(k, j), which is entry (5000 t + i, j) of the whole product; the twenty row blocks cover the
  output, so the output array ends as the whole product — the host's `dot_general` of the two arrays as the region finds them.
-/
import proofs.«168757_j89249420411435_1_alg».proof.Proof.Gen.KernelIdeal.Frame
import proofs.«168757_j89249420411435_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Prod1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block's product at an entry -/

theorem lhs_0 (i : S5000x64.Idx) (q : dot_S5000x6_S6x64_S5000x64_1_0_0_1_n_n.contr.Idx) : (dot_S5000x6_S6x64_S5000x64_1_0_0_1_n_n.lhsIdx i q 0).val = (i 0).val := by
  unfold DotDims.lhsIdx
  rw [dif_neg (show ¬(0 : Fin S5000x6.rank) ∈ dot_S5000x6_S6x64_S5000x64_1_0_0_1_n_n.lhsBatch by decide), dif_pos (show (0 : Fin S5000x6.rank) ∈ dot_S5000x6_S6x64_S5000x64_1_0_0_1_n_n.lhsNonContracting by decide)]
  rfl
theorem lhs_1 (i : S5000x64.Idx) (q : dot_S5000x6_S6x64_S5000x64_1_0_0_1_n_n.contr.Idx) : (dot_S5000x6_S6x64_S5000x64_1_0_0_1_n_n.lhsIdx i q 1).val = (q ⟨0, by decide⟩).val :=
  dot_S5000x6_S6x64_S5000x64_1_0_0_1_n_n.lhsIdx_val_of_single rfl i q
theorem rhs_0 (i : S5000x64.Idx) (q : dot_S5000x6_S6x64_S5000x64_1_0_0_1_n_n.contr.Idx) : (dot_S5000x6_S6x64_S5000x64_1_0_0_1_n_n.rhsIdx i q 0).val = (q ⟨0, by decide⟩).val :=
  dot_S5000x6_S6x64_S5000x64_1_0_0_1_n_n.rhsIdx_val_of_single rfl i q
theorem rhs_1 (i : S5000x64.Idx) (q : dot_S5000x6_S6x64_S5000x64_1_0_0_1_n_n.contr.Idx) : (dot_S5000x6_S6x64_S5000x64_1_0_0_1_n_n.rhsIdx i q 1).val = (i 1).val := by
  unfold DotDims.rhsIdx
  rw [dif_neg (show ¬(1 : Fin S6x64.rank) ∈ dot_S5000x6_S6x64_S5000x64_1_0_0_1_n_n.rhsBatch by decide), dif_pos (show (1 : Fin S6x64.rank) ∈ dot_S5000x6_S6x64_S5000x64_1_0_0_1_n_n.rhsNonContracting by decide)]
  rfl

/-- Entry (p, q) of what the body stores: the sum over the contracted axis of left(p, k) · right(k, q). -/
theorem pay_apply (x0 : FVec Ideal S5000x6 .f32) (x1 : FVec Ideal S6x64 .f32) (p : Fin 5000) (q : Fin 64) :
    (k1_pay1 x0 x1 : FVec Ideal S5000x64 .f32) (ix2 p q) = ∑ k : Fin 6, x0 (ix2 p k) * x1 (ix2 k q) := by
  show FloatOps.matmul dot_S5000x6_S6x64_S5000x64_1_0_0_1_n_n none (shapeCast S5000x6 x0 shapeCasts_S5000x6_S5000x6) x1 (constant S5000x64 .f32 0x00000000#32) (ix2 p q) = _
  rw [shapeCast_self]
  rw [Ideal.matmul_constant_zero_apply, ← Equiv.sum_comp (ValueIdx.contrEquiv1 dot_S5000x6_S6x64_S5000x64_1_0_0_1_n_n 6 rfl rfl).symm]
  refine Finset.sum_congr rfl fun k _ => ?_
  have hk := ValueIdx.contrEquiv1_symm_val dot_S5000x6_S6x64_S5000x64_1_0_0_1_n_n 6 rfl rfl k
  have el : dot_S5000x6_S6x64_S5000x64_1_0_0_1_n_n.lhsIdx (ix2 p q) ((ValueIdx.contrEquiv1 dot_S5000x6_S6x64_S5000x64_1_0_0_1_n_n 6 rfl rfl).symm k) = ix2 p k := funext fun a => Fin.ext (by
    match a with
    | ⟨0, _⟩ => exact lhs_0 _ _
    | ⟨1, _⟩ => exact (lhs_1 _ _).trans hk)
  have er : dot_S5000x6_S6x64_S5000x64_1_0_0_1_n_n.rhsIdx (ix2 p q) ((ValueIdx.contrEquiv1 dot_S5000x6_S6x64_S5000x64_1_0_0_1_n_n 6 rfl rfl).symm k) = ix2 k q := funext fun a => Fin.ext (by
    match a with
    | ⟨0, _⟩ => exact (rhs_0 _ _).trans hk
    | ⟨1, _⟩ => exact rhs_1 _ _)
  rw [el, er]

/-! ## The whole product at an entry -/

/-- The two arrays as the region finds them. -/
abbrev left (c : Dev nD) : FVec Ideal S100000x6 .f32 := V c main_v62
abbrev right (c : Dev nD) : FVec Ideal S6x64 .f32 := V c main_arg5

/-- The host's product of two arrays, entry (r, q): the sum over k of x(r, k) · w(k, q). -/
theorem host_apply (x : FVec Ideal S100000x6 .f32) (w : FVec Ideal S6x64 .f32) (rr : Fin 100000) (q : Fin 64) :
    (Host.dotGeneral (F := Ideal) Cert.ReferenceIdeal.dot_S100000x6_S6x64_S100000x64_1_0_0_1_n_n none x w : FVec Ideal S100000x64 .f32) (ix2 rr q) = ∑ k : Fin 6, x (ix2 rr k) * w (ix2 k q) := by
  simp only [Host.dotGeneral]
  rw [Ideal.dotGeneral_apply, ← Equiv.sum_comp (ValueIdx.contrEquiv1 Cert.ReferenceIdeal.dot_S100000x6_S6x64_S100000x64_1_0_0_1_n_n 6 rfl rfl).symm]
  refine Finset.sum_congr rfl fun k _ => ?_
  have hk := ValueIdx.contrEquiv1_symm_val Cert.ReferenceIdeal.dot_S100000x6_S6x64_S100000x64_1_0_0_1_n_n 6 rfl rfl k
  have el : Cert.ReferenceIdeal.dot_S100000x6_S6x64_S100000x64_1_0_0_1_n_n.lhsIdx (ix2 rr q) ((ValueIdx.contrEquiv1 Cert.ReferenceIdeal.dot_S100000x6_S6x64_S100000x64_1_0_0_1_n_n 6 rfl rfl).symm k) = ix2 rr k := funext fun a => Fin.ext (by
    match a with
    | ⟨0, _⟩ => exact Cert.ReferenceIdeal.ReadP.lhs_main_v63_0 _ _
    | ⟨1, _⟩ => exact (Cert.ReferenceIdeal.ReadP.lhs_main_v63_1 _ _).trans hk)
  have er : Cert.ReferenceIdeal.dot_S100000x6_S6x64_S100000x64_1_0_0_1_n_n.rhsIdx (ix2 rr q) ((ValueIdx.contrEquiv1 Cert.ReferenceIdeal.dot_S100000x6_S6x64_S100000x64_1_0_0_1_n_n 6 rfl rfl).symm k) = ix2 k q := funext fun a => Fin.ext (by
    match a with
    | ⟨0, _⟩ => exact (Cert.ReferenceIdeal.ReadP.rhs_main_v63_0 _ _).trans hk
    | ⟨1, _⟩ => exact Cert.ReferenceIdeal.ReadP.rhs_main_v63_1 _ _)
  rw [el, er]

/-- The host's product of the two arrays the region finds: the function the output array ends holding. -/
def whole (c : Dev nD) : FVec Ideal S100000x64 .f32 :=
  Host.dotGeneral (F := Ideal) Cert.ReferenceIdeal.dot_S100000x6_S6x64_S100000x64_1_0_0_1_n_n none (left V c) (right V c)

/-! ## The blocks -/

/-- Where the three windows' blocks sit at point `t`: row block `t` of the left operand and of the output, the one block
    of the right operand. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `5000 t …` of the left array. -/
theorem left_read (c : Dev nD) (t : Fin cfg1.N) (y : S5000x6.Idx) (k : S100000x6.Idx)
    (h0 : (k 0).val = 5000 * t.val + (y 0).val) (h1 : (k 1).val = (y 1).val) :
    (iblk1 V c 0 t : FVec Ideal S5000x6 .f32) y = left V c k := by
  obtain ⟨e0, e1, -, -, -, -⟩ := idx_facts t
  unfold iblk1
  rw [View.read_apply]
  show left V c _ = left V c k
  refine congrArg (left V c) ?_
  funext a
  apply Fin.ext
  match a with
  | ⟨0, _⟩ => show win1_0.index t 0 * 5000 + 1 * (y 0).val = (k 0).val; rw [e0, h0]; omega
  | ⟨1, _⟩ => show win1_0.index t 1 * 6 + 1 * (y 1).val = (k 1).val; rw [e1, h1]; omega

/-- The right window's block at any point is the whole right array. -/
theorem right_read (c : Dev nD) (t : Fin cfg1.N) (y : S6x64.Idx) :
    (iblk1 V c 1 t : FVec Ideal S6x64 .f32) y = right V c y := by
  obtain ⟨-, -, e0, e1, -, -⟩ := idx_facts t
  unfold iblk1
  rw [View.read_apply]
  show right V c _ = right V c y
  refine congrArg (right V c) ?_
  funext a
  apply Fin.ext
  match a with
  | ⟨0, _⟩ => show win1_1.index t 0 * 6 + 1 * (y 0).val = (y 0).val; rw [e0]; omega
  | ⟨1, _⟩ => show win1_1.index t 1 * 64 + 1 * (y 1).val = (y 1).val; rw [e1]; omega

/-- The row of the whole array that row `p` of point `t`'s block is. -/
def rowOf (t : Fin cfg1.N) (p : Fin 5000) : Fin 100000 :=
  ⟨5000 * t.val + p.val, by have := t.isLt; have hN : cfg1.N = 20 := N_1; have := p.isLt; omega⟩

/-- What point `t` writes back is row block `t` of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S5000x6) hz, View.ld_unit_zero (S := S6x64) hz]
  obtain ⟨-, -, -, -, e0, e1⟩ := idx_facts t
  refine funext fun (j : S5000x64.Idx) => ?_
  obtain ⟨p, q, rfl⟩ : ∃ (p : Fin 5000) (q : Fin 64), j = ix2 p q := ⟨j 0, j 1, eq_ix2 j⟩
  show (k1_pay1 (iblk1 V c 0 t) (iblk1 V c 1 t) : FVec Ideal S5000x64 .f32) (ix2 p q) = whole V c (((cfg1.win 2).blk t).view.emb (ix2 p q))
  have hemb : (((cfg1.win 2).blk t).view.emb (ix2 p q) : S100000x64.Idx) = ix2 (rowOf t p) q := by
    funext a
    apply Fin.ext
    match a with
    | ⟨0, _⟩ => show win1_2.index t 0 * 5000 + 1 * p.val = 5000 * t.val + p.val; rw [e0]; omega
    | ⟨1, _⟩ => show win1_2.index t 1 * 64 + 1 * q.val = q.val; rw [e1]; omega
  rw [hemb]
  refine (pay_apply _ _ p q).trans ((host_apply (left V c) (right V c) (rowOf t p) q).trans ?_).symm
  refine Finset.sum_congr rfl fun k _ => ?_
  exact (congrArg₂ (fun (a b : Ideal .f32) => a * b) (left_read V c t (ix2 p k) (ix2 (rowOf t p) k) rfl rfl) (right_read V c t (ix2 k q))).symm

/-! ## The cover -/

theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v63).slice (win1_2.rect t)).set ↔ _
  rw [View.set_slice_whole, Rect.mem_set_unit]
  exact Iff.rfl

/-- Row `r` of the output lies in the block of point `r / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_2 _, ?_⟩
  rw [mem_blk]
  obtain ⟨-, -, -, -, e0, e1⟩ := idx_facts ⟨(i 0).val / 5000, hlt⟩
  intro a
  match a with
  | ⟨0, _⟩ =>
    show win1_2.index ⟨(i 0).val / 5000, hlt⟩ 0 * 5000 ≤ (i 0).val ∧ (i 0).val < win1_2.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_2.index ⟨(i 0).val / 5000, hlt⟩ 1 * 64 ≤ (i 1).val ∧ (i 1).val < win1_2.index ⟨(i 0).val / 5000, hlt⟩ 1 * 64 + 64
    rw [e1]; omega

/-- The output array after the region is the whole product of the two arrays the region found. -/
theorem arr (c : Dev nD) : (dat1 V c).arrAt 2 cfg1.N = whole V c :=
  (dat1 V c).arrAt_eq_of_cover 2 (whole V c) (fun t _ => flushed_eq V c t) (cover)

end Cert.KernelIdeal.Prod1

end
-- ==== Proof.FoldB.lean ====
/-
  Between the first and the second matrix product, and across the second.
  The host gathers the first product's rows at the source indices, scales each by its edge weight, scatter-adds them at
  the target indices and adds the bias: the first result. It then forms the gate (a thresholded sigmoid of a small
  product) and multiplies the structure array by it: the second product's left operand. Each is the reference's term
  of the same arguments; the second product leaves the host's matrix product of that operand and the second weight.
-/
import proofs.«168757_j89249420411435_1_alg».proof.Proof.FoldA
import proofs.«168757_j89249420411435_1_alg».proof.Proof.Prod1

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the aggregation of the first product and the sigmoid's comparison with one half -/

theorem w5_v47 : W5 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) := by
  show StableHlo.after hostOps1 (W4 m ρ c) (Proc.devRef .tc main_v47) = _
  have h0 := w4_v5 m ρ c
  have h1 := w4_v6 m ρ c
  have h2 := w4_v30 m ρ c
  have h3 := w4_v31 m ρ c
  have h4 := w4_arg4 m ρ c
  generalize W4 m ρ c = V at h0 h1 h2 h3 h4 ⊢
  after_results_simp
  simp only [h0, h1, h2, h3, h4]
  rfl
theorem w5_v56 : W5 m ρ c (Proc.devRef .tc main_v56) = Cert.ReferenceIdeal.ReadP.val_main_v56 (F := Ideal) (m ((c : Thread nD τ).loc main_arg9)) (m ((c : Thread nD τ).loc main_arg10)) := by
  show StableHlo.after hostOps1 (W4 m ρ c) (Proc.devRef .tc main_v56) = _
  have h0 := w4_arg9 m ρ c
  have h1 := w4_arg10 m ρ c
  generalize W4 m ρ c = V at h0 h1 ⊢
  after_results_simp
  simp only [h0, h1]
  rfl
theorem w5_cst_13 : W5 m ρ c (Proc.devRef .tc main_cst_13) = Cert.ReferenceIdeal.ReadP.val_main_cst_13 (F := Ideal) := by
  show StableHlo.after hostOps1 (W4 m ρ c) (Proc.devRef .tc main_cst_13) = _
  generalize W4 m ρ c = V
  after_results_simp
  rfl
theorem w5_cst_14 : W5 m ρ c (Proc.devRef .tc main_cst_14) = Cert.ReferenceIdeal.ReadP.val_main_cst_14 (F := Ideal) := by
  show StableHlo.after hostOps1 (W4 m ρ c) (Proc.devRef .tc main_cst_14) = _
  generalize W4 m ρ c = V
  after_results_simp
  rfl
theorem w5_v5 : W5 m ρ c (Proc.devRef .tc main_v5) = Cert.ReferenceIdeal.ReadP.val_main_v6 (F := Ideal) (m ((c : Thread nD τ).loc main_arg2)) := by
  show StableHlo.after hostOps1 (W4 m ρ c) (Proc.devRef .tc main_v5) = _
  have h0 := w4_v5 m ρ c
  generalize W4 m ρ c = V at h0 ⊢
  after_results_simp
  exact h0
theorem w5_v6 : W5 m ρ c (Proc.devRef .tc main_v6) = Cert.ReferenceIdeal.ReadP.val_main_v7 (F := Ideal) (m ((c : Thread nD τ).loc main_arg2)) := by
  show StableHlo.after hostOps1 (W4 m ρ c) (Proc.devRef .tc main_v6) = _
  have h0 := w4_v6 m ρ c
  generalize W4 m ρ c = V at h0 ⊢
  after_results_simp
  exact h0
theorem w5_v30 : W5 m ρ c (Proc.devRef .tc main_v30) = Cert.ReferenceIdeal.ReadP.val_main_v31 (F := Ideal) (m ((c : Thread nD τ).loc main_arg2)) := by
  show StableHlo.after hostOps1 (W4 m ρ c) (Proc.devRef .tc main_v30) = _
  have h0 := w4_v30 m ρ c
  generalize W4 m ρ c = V at h0 ⊢
  after_results_simp
  exact h0
theorem w5_arg1 : W5 m ρ c (Proc.devRef .tc main_arg1) = (m ((c : Thread nD τ).loc main_arg1)) := by
  show StableHlo.after hostOps1 (W4 m ρ c) (Proc.devRef .tc main_arg1) = _
  have h0 := w4_arg1 m ρ c
  generalize W4 m ρ c = V at h0 ⊢
  after_results_simp
  exact h0
theorem w5_arg5 : W5 m ρ c (Proc.devRef .tc main_arg5) = (m ((c : Thread nD τ).loc main_arg5)) := by
  show StableHlo.after hostOps1 (W4 m ρ c) (Proc.devRef .tc main_arg5) = _
  have h0 := w4_arg5 m ρ c
  generalize W4 m ρ c = V at h0 ⊢
  after_results_simp
  exact h0
theorem w5_arg6 : W5 m ρ c (Proc.devRef .tc main_arg6) = (m ((c : Thread nD τ).loc main_arg6)) := by
  show StableHlo.after hostOps1 (W4 m ρ c) (Proc.devRef .tc main_arg6) = _
  have h0 := w4_arg6 m ρ c
  generalize W4 m ρ c = V at h0 ⊢
  after_results_simp
  exact h0
theorem w5_arg7 : W5 m ρ c (Proc.devRef .tc main_arg7) = (m ((c : Thread nD τ).loc main_arg7)) := by
  show StableHlo.after hostOps1 (W4 m ρ c) (Proc.devRef .tc main_arg7) = _
  have h0 := w4_arg7 m ρ c
  generalize W4 m ρ c = V at h0 ⊢
  after_results_simp
  exact h0
theorem w5_arg8 : W5 m ρ c (Proc.devRef .tc main_arg8) = (m ((c : Thread nD τ).loc main_arg8)) := by
  show StableHlo.after hostOps1 (W4 m ρ c) (Proc.devRef .tc main_arg8) = _
  have h0 := w4_arg8 m ρ c
  generalize W4 m ρ c = V at h0 ⊢
  after_results_simp
  exact h0
theorem w5_arg11 : W5 m ρ c (Proc.devRef .tc main_arg11) = (m ((c : Thread nD τ).loc main_arg11)) := by
  show StableHlo.after hostOps1 (W4 m ρ c) (Proc.devRef .tc main_arg11) = _
  have h0 := w4_arg11 m ρ c
  generalize W4 m ρ c = V at h0 ⊢
  after_results_simp
  exact h0
theorem w5_arg12 : W5 m ρ c (Proc.devRef .tc main_arg12) = (m ((c : Thread nD τ).loc main_arg12)) := by
  show StableHlo.after hostOps1 (W4 m ρ c) (Proc.devRef .tc main_arg12) = _
  have h0 := w4_arg12 m ρ c
  generalize W4 m ρ c = V at h0 ⊢
  after_results_simp
  exact h0

/-! ## After the choice between zero and one: the gate -/

/-- The choice, read at any contents: zero where the sigmoid is below one half, one elsewhere. -/
theorem choice1 (V : Valuation τ sig (Elt Ideal)) (x56 : (⟨S6x1, .i1⟩ : BufTy).Contents (Elt Ideal)) (xa xb : (⟨S_, .f32⟩ : BufTy).Contents (Elt Ideal))
    (h0 : V (Proc.devRef .tc main_v56) = x56) (h1 : V (Proc.devRef .tc main_cst_13) = xa) (h2 : V (Proc.devRef .tc main_cst_14) = xb) :
    StableHlo.after hostOps1_1 V (Proc.devRef .tc main_v57) = select x56 (broadcastInDim S6x1 ![] bcast_S_S6x1 xa) (broadcastInDim S6x1 ![] bcast_S_S6x1 xb) := by
  after_results_simp
  simp only [h0, h1, h2]
  rfl
theorem w6_v57 : W6 m ρ c (Proc.devRef .tc main_v57) = Cert.ReferenceIdeal.ReadP.val_main_v57 (F := Ideal) (m ((c : Thread nD τ).loc main_arg9)) (m ((c : Thread nD τ).loc main_arg10)) :=
  (choice1 (W5 m ρ c) _ _ _ (w5_v56 m ρ c) (w5_cst_13 m ρ c) (w5_cst_14 m ρ c)).trans (by
    unfold Cert.ReferenceIdeal.ReadP.val_main_v57 Cert.ReferenceIdeal.ReadP.val_main_call1_v0 Cert.ReferenceIdeal.ReadP.val_main_call1_v1
    rfl)
theorem w6_v47 : W6 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) := by
  show StableHlo.after hostOps1_1 (W5 m ρ c) (Proc.devRef .tc main_v47) = _
  have h0 := w5_v47 m ρ c
  generalize W5 m ρ c = V at h0 ⊢
  after_results_simp
  exact h0
theorem w6_v5 : W6 m ρ c (Proc.devRef .tc main_v5) = Cert.ReferenceIdeal.ReadP.val_main_v6 (F := Ideal) (m ((c : Thread nD τ).loc main_arg2)) := by
  show StableHlo.after hostOps1_1 (W5 m ρ c) (Proc.devRef .tc main_v5) = _
  have h0 := w5_v5 m ρ c
  generalize W5 m ρ c = V at h0 ⊢
  after_results_simp
  exact h0
theorem w6_v6 : W6 m ρ c (Proc.devRef .tc main_v6) = Cert.ReferenceIdeal.ReadP.val_main_v7 (F := Ideal) (m ((c : Thread nD τ).loc main_arg2)) := by
  show StableHlo.after hostOps1_1 (W5 m ρ c) (Proc.devRef .tc main_v6) = _
  have h0 := w5_v6 m ρ c
  generalize W5 m ρ c = V at h0 ⊢
  after_results_simp
  exact h0
theorem w6_v30 : W6 m ρ c (Proc.devRef .tc main_v30) = Cert.ReferenceIdeal.ReadP.val_main_v31 (F := Ideal) (m ((c : Thread nD τ).loc main_arg2)) := by
  show StableHlo.after hostOps1_1 (W5 m ρ c) (Proc.devRef .tc main_v30) = _
  have h0 := w5_v30 m ρ c
  generalize W5 m ρ c = V at h0 ⊢
  after_results_simp
  exact h0
theorem w6_arg1 : W6 m ρ c (Proc.devRef .tc main_arg1) = (m ((c : Thread nD τ).loc main_arg1)) := by
  show StableHlo.after hostOps1_1 (W5 m ρ c) (Proc.devRef .tc main_arg1) = _
  have h0 := w5_arg1 m ρ c
  generalize W5 m ρ c = V at h0 ⊢
  after_results_simp
  exact h0
theorem w6_arg5 : W6 m ρ c (Proc.devRef .tc main_arg5) = (m ((c : Thread nD τ).loc main_arg5)) := by
  show StableHlo.after hostOps1_1 (W5 m ρ c) (Proc.devRef .tc main_arg5) = _
  have h0 := w5_arg5 m ρ c
  generalize W5 m ρ c = V at h0 ⊢
  after_results_simp
  exact h0
theorem w6_arg6 : W6 m ρ c (Proc.devRef .tc main_arg6) = (m ((c : Thread nD τ).loc main_arg6)) := by
  show StableHlo.after hostOps1_1 (W5 m ρ c) (Proc.devRef .tc main_arg6) = _
  have h0 := w5_arg6 m ρ c
  generalize W5 m ρ c = V at h0 ⊢
  after_results_simp
  exact h0
theorem w6_arg7 : W6 m ρ c (Proc.devRef .tc main_arg7) = (m ((c : Thread nD τ).loc main_arg7)) := by
  show StableHlo.after hostOps1_1 (W5 m ρ c) (Proc.devRef .tc main_arg7) = _
  have h0 := w5_arg7 m ρ c
  generalize W5 m ρ c = V at h0 ⊢
  after_results_simp
  exact h0
theorem w6_arg8 : W6 m ρ c (Proc.devRef .tc main_arg8) = (m ((c : Thread nD τ).loc main_arg8)) := by
  show StableHlo.after hostOps1_1 (W5 m ρ c) (Proc.devRef .tc main_arg8) = _
  have h0 := w5_arg8 m ρ c
  generalize W5 m ρ c = V at h0 ⊢
  after_results_simp
  exact h0
theorem w6_arg11 : W6 m ρ c (Proc.devRef .tc main_arg11) = (m ((c : Thread nD τ).loc main_arg11)) := by
  show StableHlo.after hostOps1_1 (W5 m ρ c) (Proc.devRef .tc main_arg11) = _
  have h0 := w5_arg11 m ρ c
  generalize W5 m ρ c = V at h0 ⊢
  after_results_simp
  exact h0
theorem w6_arg12 : W6 m ρ c (Proc.devRef .tc main_arg12) = (m ((c : Thread nD τ).loc main_arg12)) := by
  show StableHlo.after hostOps1_1 (W5 m ρ c) (Proc.devRef .tc main_arg12) = _
  have h0 := w5_arg12 m ρ c
  generalize W5 m ρ c = V at h0 ⊢
  after_results_simp
  exact h0

/-! ## At the second product's entry: the gated structure array -/

theorem w7_v62 : W7 m ρ c (Proc.devRef .tc main_v62) = Cert.ReferenceIdeal.ReadP.val_main_v62 (F := Ideal) (m ((c : Thread nD τ).loc main_arg1)) (m ((c : Thread nD τ).loc main_arg9)) (m ((c : Thread nD τ).loc main_arg10)) := by
  show StableHlo.after hostOps1_2 (W6 m ρ c) (Proc.devRef .tc main_v62) = _
  have h0 := w6_v57 m ρ c
  have h1 := w6_arg1 m ρ c
  generalize W6 m ρ c = V at h0 h1 ⊢
  after_results_simp
  simp only [h0, h1]
  rfl
theorem w7_v47 : W7 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) := by
  show StableHlo.after hostOps1_2 (W6 m ρ c) (Proc.devRef .tc main_v47) = _
  have h0 := w6_v47 m ρ c
  generalize W6 m ρ c = V at h0 ⊢
  after_results_simp
  exact h0
theorem w7_v5 : W7 m ρ c (Proc.devRef .tc main_v5) = Cert.ReferenceIdeal.ReadP.val_main_v6 (F := Ideal) (m ((c : Thread nD τ).loc main_arg2)) := by
  show StableHlo.after hostOps1_2 (W6 m ρ c) (Proc.devRef .tc main_v5) = _
  have h0 := w6_v5 m ρ c
  generalize W6 m ρ c = V at h0 ⊢
  after_results_simp
  exact h0
theorem w7_v6 : W7 m ρ c (Proc.devRef .tc main_v6) = Cert.ReferenceIdeal.ReadP.val_main_v7 (F := Ideal) (m ((c : Thread nD τ).loc main_arg2)) := by
  show StableHlo.after hostOps1_2 (W6 m ρ c) (Proc.devRef .tc main_v6) = _
  have h0 := w6_v6 m ρ c
  generalize W6 m ρ c = V at h0 ⊢
  after_results_simp
  exact h0
theorem w7_v30 : W7 m ρ c (Proc.devRef .tc main_v30) = Cert.ReferenceIdeal.ReadP.val_main_v31 (F := Ideal) (m ((c : Thread nD τ).loc main_arg2)) := by
  show StableHlo.after hostOps1_2 (W6 m ρ c) (Proc.devRef .tc main_v30) = _
  have h0 := w6_v30 m ρ c
  generalize W6 m ρ c = V at h0 ⊢
  after_results_simp
  exact h0
theorem w7_arg5 : W7 m ρ c (Proc.devRef .tc main_arg5) = (m ((c : Thread nD τ).loc main_arg5)) := by
  show StableHlo.after hostOps1_2 (W6 m ρ c) (Proc.devRef .tc main_arg5) = _
  have h0 := w6_arg5 m ρ c
  generalize W6 m ρ c = V at h0 ⊢
  after_results_simp
  exact h0
theorem w7_arg6 : W7 m ρ c (Proc.devRef .tc main_arg6) = (m ((c : Thread nD τ).loc main_arg6)) := by
  show StableHlo.after hostOps1_2 (W6 m ρ c) (Proc.devRef .tc main_arg6) = _
  have h0 := w6_arg6 m ρ c
  generalize W6 m ρ c = V at h0 ⊢
  after_results_simp
  exact h0
theorem w7_arg7 : W7 m ρ c (Proc.devRef .tc main_arg7) = (m ((c : Thread nD τ).loc main_arg7)) := by
  show StableHlo.after hostOps1_2 (W6 m ρ c) (Proc.devRef .tc main_arg7) = _
  have h0 := w6_arg7 m ρ c
  generalize W6 m ρ c = V at h0 ⊢
  after_results_simp
  exact h0
theorem w7_arg8 : W7 m ρ c (Proc.devRef .tc main_arg8) = (m ((c : Thread nD τ).loc main_arg8)) := by
  show StableHlo.after hostOps1_2 (W6 m ρ c) (Proc.devRef .tc main_arg8) = _
  have h0 := w6_arg8 m ρ c
  generalize W6 m ρ c = V at h0 ⊢
  after_results_simp
  exact h0
theorem w7_arg11 : W7 m ρ c (Proc.devRef .tc main_arg11) = (m ((c : Thread nD τ).loc main_arg11)) := by
  show StableHlo.after hostOps1_2 (W6 m ρ c) (Proc.devRef .tc main_arg11) = _
  have h0 := w6_arg11 m ρ c
  generalize W6 m ρ c = V at h0 ⊢
  after_results_simp
  exact h0
theorem w7_arg12 : W7 m ρ c (Proc.devRef .tc main_arg12) = (m ((c : Thread nD τ).loc main_arg12)) := by
  show StableHlo.after hostOps1_2 (W6 m ρ c) (Proc.devRef .tc main_arg12) = _
  have h0 := w6_arg12 m ρ c
  generalize W6 m ρ c = V at h0 ⊢
  after_results_simp
  exact h0

/-! ## At the second product's exit -/

theorem w8_v63 : W8 m ρ c (Proc.devRef .tc main_v63) = Cert.ReferenceIdeal.ReadP.val_main_v63 (F := Ideal) (m ((c : Thread nD τ).loc main_arg1)) (m ((c : Thread nD τ).loc main_arg5)) (m ((c : Thread nD τ).loc main_arg9)) (m ((c : Thread nD τ).loc main_arg10)) := by
  refine (W8_arr m ρ c 2).trans ((Cert.KernelIdeal.Prod1.arr (V7 m ρ) c).trans ?_)
  unfold Cert.KernelIdeal.Prod1.whole Cert.ReferenceIdeal.ReadP.val_main_v63
  exact congrArg₂ (fun x y => Host.dotGeneral (F := Ideal) Cert.ReferenceIdeal.dot_S100000x6_S6x64_S100000x64_1_0_0_1_n_n none x y) (w7_v62 m ρ c) (w7_arg5 m ρ c)
theorem w8_v47 : W8 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) :=
  (W8_of_ne m ρ c main_v47 (by decide)).trans (w7_v47 m ρ c)
theorem w8_v5 : W8 m ρ c (Proc.devRef .tc main_v5) = Cert.ReferenceIdeal.ReadP.val_main_v6 (F := Ideal) (m ((c : Thread nD τ).loc main_arg2)) :=
  (W8_of_ne m ρ c main_v5 (by decide)).trans (w7_v5 m ρ c)
theorem w8_v6 : W8 m ρ c (Proc.devRef .tc main_v6) = Cert.ReferenceIdeal.ReadP.val_main_v7 (F := Ideal) (m ((c : Thread nD τ).loc main_arg2)) :=
  (W8_of_ne m ρ c main_v6 (by decide)).trans (w7_v6 m ρ c)
theorem w8_v30 : W8 m ρ c (Proc.devRef .tc main_v30) = Cert.ReferenceIdeal.ReadP.val_main_v31 (F := Ideal) (m ((c : Thread nD τ).loc main_arg2)) :=
  (W8_of_ne m ρ c main_v30 (by decide)).trans (w7_v30 m ρ c)
theorem w8_arg6 : W8 m ρ c (Proc.devRef .tc main_arg6) = (m ((c : Thread nD τ).loc main_arg6)) :=
  (W8_of_ne m ρ c main_arg6 (by decide)).trans (w7_arg6 m ρ c)
theorem w8_arg7 : W8 m ρ c (Proc.devRef .tc main_arg7) = (m ((c : Thread nD τ).loc main_arg7)) :=
  (W8_of_ne m ρ c main_arg7 (by decide)).trans (w7_arg7 m ρ c)
theorem w8_arg8 : W8 m ρ c (Proc.devRef .tc main_arg8) = (m ((c : Thread nD τ).loc main_arg8)) :=
  (W8_of_ne m ρ c main_arg8 (by decide)).trans (w7_arg8 m ρ c)
theorem w8_arg11 : W8 m ρ c (Proc.devRef .tc main_arg11) = (m ((c : Thread nD τ).loc main_arg11)) :=
  (W8_of_ne m ρ c main_arg11 (by decide)).trans (w7_arg11 m ρ c)
theorem w8_arg12 : W8 m ρ c (Proc.devRef .tc main_arg12) = (m ((c : Thread nD τ).loc main_arg12)) :=
  (W8_of_ne m ρ c main_arg12 (by decide)).trans (w7_arg12 m ρ c)

end Cert.KernelIdeal.Fold

end
-- ==== Proof.Prod2.lean ====
/-
  Region 2 of the kernel program is a row-tiled matrix product: the grid has twenty points, point `t` reads rows
  `5000 t … 5000 t + 4999` of the left operand (a [100000, 128] array) and the whole [128, 7] right operand, multiplies them
  into a zero accumulator (the roundings to bf16 on the way in are the identity on extended reals) and writes rows
  `5000 t … 5000 t + 4999` of the [100000, 7] output. Entry (i, j) of the block's product is the sum over k of
  left(5000 t + i, k) · right(k, j), which is entry (5000 t + i, j) of the whole product; the twenty row blocks cover the
  output, so the output array ends as the whole product — the host's `dot_general` of the two arrays as the region finds them.
-/
import proofs.«168757_j89249420411435_1_alg».proof.Proof.Gen.KernelIdeal.Frame
import proofs.«168757_j89249420411435_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Prod2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block's product at an entry -/

theorem lhs_0 (i : S5000x7.Idx) (q : dot_S5000x128_S128x7_S5000x7_1_0_0_1_n_n.contr.Idx) : (dot_S5000x128_S128x7_S5000x7_1_0_0_1_n_n.lhsIdx i q 0).val = (i 0).val := by
  unfold DotDims.lhsIdx
  rw [dif_neg (show ¬(0 : Fin S5000x128.rank) ∈ dot_S5000x128_S128x7_S5000x7_1_0_0_1_n_n.lhsBatch by decide), dif_pos (show (0 : Fin S5000x128.rank) ∈ dot_S5000x128_S128x7_S5000x7_1_0_0_1_n_n.lhsNonContracting by decide)]
  rfl
theorem lhs_1 (i : S5000x7.Idx) (q : dot_S5000x128_S128x7_S5000x7_1_0_0_1_n_n.contr.Idx) : (dot_S5000x128_S128x7_S5000x7_1_0_0_1_n_n.lhsIdx i q 1).val = (q ⟨0, by decide⟩).val :=
  dot_S5000x128_S128x7_S5000x7_1_0_0_1_n_n.lhsIdx_val_of_single rfl i q
theorem rhs_0 (i : S5000x7.Idx) (q : dot_S5000x128_S128x7_S5000x7_1_0_0_1_n_n.contr.Idx) : (dot_S5000x128_S128x7_S5000x7_1_0_0_1_n_n.rhsIdx i q 0).val = (q ⟨0, by decide⟩).val :=
  dot_S5000x128_S128x7_S5000x7_1_0_0_1_n_n.rhsIdx_val_of_single rfl i q
theorem rhs_1 (i : S5000x7.Idx) (q : dot_S5000x128_S128x7_S5000x7_1_0_0_1_n_n.contr.Idx) : (dot_S5000x128_S128x7_S5000x7_1_0_0_1_n_n.rhsIdx i q 1).val = (i 1).val := by
  unfold DotDims.rhsIdx
  rw [dif_neg (show ¬(1 : Fin S128x7.rank) ∈ dot_S5000x128_S128x7_S5000x7_1_0_0_1_n_n.rhsBatch by decide), dif_pos (show (1 : Fin S128x7.rank) ∈ dot_S5000x128_S128x7_S5000x7_1_0_0_1_n_n.rhsNonContracting by decide)]
  rfl

/-- Entry (p, q) of what the body stores: the sum over the contracted axis of left(p, k) · right(k, q). -/
theorem pay_apply (x0 : FVec Ideal S5000x128 .f32) (x1 : FVec Ideal S128x7 .f32) (p : Fin 5000) (q : Fin 7) :
    (k2_pay1 x0 x1 : FVec Ideal S5000x7 .f32) (ix2 p q) = ∑ k : Fin 128, x0 (ix2 p k) * x1 (ix2 k q) := by
  show FloatOps.matmul dot_S5000x128_S128x7_S5000x7_1_0_0_1_n_n none (shapeCast S5000x128 x0 shapeCasts_S5000x128_S5000x128) x1 (constant S5000x7 .f32 0x00000000#32) (ix2 p q) = _
  rw [shapeCast_self]
  rw [Ideal.matmul_constant_zero_apply, ← Equiv.sum_comp (ValueIdx.contrEquiv1 dot_S5000x128_S128x7_S5000x7_1_0_0_1_n_n 128 rfl rfl).symm]
  refine Finset.sum_congr rfl fun k _ => ?_
  have hk := ValueIdx.contrEquiv1_symm_val dot_S5000x128_S128x7_S5000x7_1_0_0_1_n_n 128 rfl rfl k
  have el : dot_S5000x128_S128x7_S5000x7_1_0_0_1_n_n.lhsIdx (ix2 p q) ((ValueIdx.contrEquiv1 dot_S5000x128_S128x7_S5000x7_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x7_S5000x7_1_0_0_1_n_n.rhsIdx (ix2 p q) ((ValueIdx.contrEquiv1 dot_S5000x128_S128x7_S5000x7_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The whole product at an entry -/

/-- The two arrays as the region finds them. -/
abbrev left (c : Dev nD) : FVec Ideal S100000x128 .f32 := V c main_v93
abbrev right (c : Dev nD) : FVec Ideal S128x7 .f32 := V c main_arg7

/-- The host's product of two arrays, entry (r, q): the sum over k of x(r, k) · w(k, q). -/
theorem host_apply (x : FVec Ideal S100000x128 .f32) (w : FVec Ideal S128x7 .f32) (rr : Fin 100000) (q : Fin 7) :
    (Host.dotGeneral (F := Ideal) Cert.ReferenceIdeal.dot_S100000x128_S128x7_S100000x7_1_0_0_1_n_n none x w : FVec Ideal S100000x7 .f32) (ix2 rr q) = ∑ k : Fin 128, x (ix2 rr k) * w (ix2 k q) := by
  simp only [Host.dotGeneral]
  rw [Ideal.dotGeneral_apply, ← Equiv.sum_comp (ValueIdx.contrEquiv1 Cert.ReferenceIdeal.dot_S100000x128_S128x7_S100000x7_1_0_0_1_n_n 128 rfl rfl).symm]
  refine Finset.sum_congr rfl fun k _ => ?_
  have hk := ValueIdx.contrEquiv1_symm_val Cert.ReferenceIdeal.dot_S100000x128_S128x7_S100000x7_1_0_0_1_n_n 128 rfl rfl k
  have el : Cert.ReferenceIdeal.dot_S100000x128_S128x7_S100000x7_1_0_0_1_n_n.lhsIdx (ix2 rr q) ((ValueIdx.contrEquiv1 Cert.ReferenceIdeal.dot_S100000x128_S128x7_S100000x7_1_0_0_1_n_n 128 rfl rfl).symm k) = ix2 rr k := funext fun a => Fin.ext (by
    match a with
    | ⟨0, _⟩ => exact Cert.ReferenceIdeal.ReadP.lhs_main_v121_0 _ _
    | ⟨1, _⟩ => exact (Cert.ReferenceIdeal.ReadP.lhs_main_v121_1 _ _).trans hk)
  have er : Cert.ReferenceIdeal.dot_S100000x128_S128x7_S100000x7_1_0_0_1_n_n.rhsIdx (ix2 rr q) ((ValueIdx.contrEquiv1 Cert.ReferenceIdeal.dot_S100000x128_S128x7_S100000x7_1_0_0_1_n_n 128 rfl rfl).symm k) = ix2 k q := funext fun a => Fin.ext (by
    match a with
    | ⟨0, _⟩ => exact (Cert.ReferenceIdeal.ReadP.rhs_main_v121_0 _ _).trans hk
    | ⟨1, _⟩ => exact Cert.ReferenceIdeal.ReadP.rhs_main_v121_1 _ _)
  rw [el, er]

/-- The host's product of the two arrays the region finds: the function the output array ends holding. -/
def whole (c : Dev nD) : FVec Ideal S100000x7 .f32 :=
  Host.dotGeneral (F := Ideal) Cert.ReferenceIdeal.dot_S100000x128_S128x7_S100000x7_1_0_0_1_n_n none (left V c) (right V c)

/-! ## The blocks -/

/-- Where the three windows' blocks sit at point `t`: row block `t` of the left operand and of the output, the one block
    of the right operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `5000 t …` of the left array. -/
theorem left_read (c : Dev nD) (t : Fin cfg2.N) (y : S5000x128.Idx) (k : S100000x128.Idx)
    (h0 : (k 0).val = 5000 * t.val + (y 0).val) (h1 : (k 1).val = (y 1).val) :
    (iblk2 V c 0 t : FVec Ideal S5000x128 .f32) y = left V c k := by
  obtain ⟨e0, e1, -, -, -, -⟩ := idx_facts t
  unfold iblk2
  rw [View.read_apply]
  show left V c _ = left V c k
  refine congrArg (left V c) ?_
  funext a
  apply Fin.ext
  match a with
  | ⟨0, _⟩ => show win2_0.index t 0 * 5000 + 1 * (y 0).val = (k 0).val; rw [e0, h0]; omega
  | ⟨1, _⟩ => show win2_0.index t 1 * 128 + 1 * (y 1).val = (k 1).val; rw [e1, h1]; omega

/-- The right window's block at any point is the whole right array. -/
theorem right_read (c : Dev nD) (t : Fin cfg2.N) (y : S128x7.Idx) :
    (iblk2 V c 1 t : FVec Ideal S128x7 .f32) y = right V c y := by
  obtain ⟨-, -, e0, e1, -, -⟩ := idx_facts t
  unfold iblk2
  rw [View.read_apply]
  show right V c _ = right V c y
  refine congrArg (right V c) ?_
  funext a
  apply Fin.ext
  match a with
  | ⟨0, _⟩ => show win2_1.index t 0 * 128 + 1 * (y 0).val = (y 0).val; rw [e0]; omega
  | ⟨1, _⟩ => show win2_1.index t 1 * 7 + 1 * (y 1).val = (y 1).val; rw [e1]; omega

/-- The row of the whole array that row `p` of point `t`'s block is. -/
def rowOf (t : Fin cfg2.N) (p : Fin 5000) : Fin 100000 :=
  ⟨5000 * t.val + p.val, by have := t.isLt; have hN : cfg2.N = 20 := N_2; have := p.isLt; omega⟩

/-- What point `t` writes back is row block `t` of the whole product. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x7) hz]
  obtain ⟨-, -, -, -, e0, e1⟩ := idx_facts t
  refine funext fun (j : S5000x7.Idx) => ?_
  obtain ⟨p, q, rfl⟩ : ∃ (p : Fin 5000) (q : Fin 7), j = ix2 p q := ⟨j 0, j 1, eq_ix2 j⟩
  show (k2_pay1 (iblk2 V c 0 t) (iblk2 V c 1 t) : FVec Ideal S5000x7 .f32) (ix2 p q) = whole V c (((cfg2.win 2).blk t).view.emb (ix2 p q))
  have hemb : (((cfg2.win 2).blk t).view.emb (ix2 p q) : S100000x7.Idx) = ix2 (rowOf t p) q := by
    funext a
    apply Fin.ext
    match a with
    | ⟨0, _⟩ => show win2_2.index t 0 * 5000 + 1 * p.val = 5000 * t.val + p.val; rw [e0]; omega
    | ⟨1, _⟩ => show win2_2.index t 1 * 7 + 1 * q.val = q.val; rw [e1]; omega
  rw [hemb]
  refine (pay_apply _ _ p q).trans ((host_apply (left V c) (right V c) (rowOf t p) q).trans ?_).symm
  refine Finset.sum_congr rfl fun k _ => ?_
  exact (congrArg₂ (fun (a b : Ideal .f32) => a * b) (left_read V c t (ix2 p k) (ix2 (rowOf t p) k) rfl rfl) (right_read V c t (ix2 k q))).symm

/-! ## The cover -/

theorem mem_blk (t : Fin cfg2.N) (i : S100000x7.Idx) :
    i ∈ ((cfg2.win 2).blk t).view.set ↔ ∀ a : Fin 2, win2_2.index t a * S5000x7.size a ≤ (i a).val ∧ (i a).val < win2_2.index t a * S5000x7.size a + S5000x7.size a := by
  show i ∈ ((View.whole main_v94).slice (win2_2.rect t)).set ↔ _
  rw [View.set_slice_whole, Rect.mem_set_unit]
  exact Iff.rfl

/-- Row `r` of the output lies in the block of point `r / 5000`. -/
theorem cover (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 20 := N_2
  have hlt : (i 0).val / 5000 < cfg2.N := by rw [hN]; omega
  refine ⟨⟨(i 0).val / 5000, hlt⟩, flush2_2 _, ?_⟩
  rw [mem_blk]
  obtain ⟨-, -, -, -, e0, e1⟩ := idx_facts ⟨(i 0).val / 5000, hlt⟩
  intro a
  match a with
  | ⟨0, _⟩ =>
    show win2_2.index ⟨(i 0).val / 5000, hlt⟩ 0 * 5000 ≤ (i 0).val ∧ (i 0).val < win2_2.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, hlt⟩ 1 * 7 ≤ (i 1).val ∧ (i 1).val < win2_2.index ⟨(i 0).val / 5000, hlt⟩ 1 * 7 + 7
    rw [e1]; omega

/-- The output array after the region is the whole product of the two arrays the region found. -/
theorem arr (c : Dev nD) : (dat2 V c).arrAt 2 cfg2.N = whole V c :=
  (dat2 V c).arrAt_eq_of_cover 2 (whole V c) (fun t _ => flushed_eq V c t) (cover)

end Cert.KernelIdeal.Prod2

end
-- ==== Proof.FoldC.lean ====
/-
  Between the second and the third matrix product, and across the third.
  The host aggregates the second product as it did the first (gather at the sources, scale by the edge weights,
  scatter-add at the targets, add the bias): the second result. It normalizes the two mixing weights by the sum of their
  absolute values, scales the two results and joins them side by side: the third product's left operand. Each is the
  reference's term; the third product leaves the host's matrix product of that operand and the third weight. The last
  stretch aggregates the third product: the third result.
-/
import proofs.«168757_j89249420411435_1_alg».proof.Proof.FoldB
import proofs.«168757_j89249420411435_1_alg».proof.Proof.Prod2

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the third product's entry -/

theorem w9_v79 : W9 m ρ c (Proc.devRef .tc main_v79) = Cert.ReferenceIdeal.ReadP.val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) := by
  show StableHlo.after hostOps2 (W8 m ρ c) (Proc.devRef .tc main_v79) = _
  have h0 := w8_v5 m ρ c
  have h1 := w8_v6 m ρ c
  have h2 := w8_v30 m ρ c
  have h3 := w8_v63 m ρ c
  have h4 := w8_arg6 m ρ c
  generalize W8 m ρ c = V at h0 h1 h2 h3 h4 ⊢
  after_results_simp
  simp only [h0, h1, h2, h3, h4]
  rfl
theorem w9_v93 : W9 m ρ c (Proc.devRef .tc main_v93) = Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) := by
  show StableHlo.after hostOps2 (W8 m ρ c) (Proc.devRef .tc main_v93) = _
  have h0 := w8_v5 m ρ c
  have h1 := w8_v6 m ρ c
  have h2 := w8_v30 m ρ c
  have h3 := w8_v63 m ρ c
  have h4 := w8_v47 m ρ c
  have h5 := w8_arg6 m ρ c
  have h6 := w8_arg11 m ρ c
  have h7 := w8_arg12 m ρ c
  generalize W8 m ρ c = V at h0 h1 h2 h3 h4 h5 h6 h7 ⊢
  after_results_simp
  unfold Cert.ReferenceIdeal.ReadP.val_main_v120
  refine congrArg₂ (fun a b => concatenate S100000x128 1 [⟨S100000x64, a⟩, ⟨S100000x64, b⟩] concatenates_S100000x64_S100000x64_S100000x128_d1) ?_ ?_
  · after_results_simp
    simp only [h0, h1, h2, h3, h4, h5, h6, h7]
    rfl
  · after_results_simp
    simp only [h0, h1, h2, h3, h4, h5, h6, h7]
    rfl
theorem w9_v47 : W9 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) := by
  show StableHlo.after hostOps2 (W8 m ρ c) (Proc.devRef .tc main_v47) = _
  have h0 := w8_v47 m ρ c
  generalize W8 m ρ c = V at h0 ⊢
  after_results_simp
  exact h0
theorem w9_v5 : W9 m ρ c (Proc.devRef .tc main_v5) = Cert.ReferenceIdeal.ReadP.val_main_v6 (F := Ideal) (m ((c : Thread nD τ).loc main_arg2)) := by
  show StableHlo.after hostOps2 (W8 m ρ c) (Proc.devRef .tc main_v5) = _
  have h0 := w8_v5 m ρ c
  generalize W8 m ρ c = V at h0 ⊢
  after_results_simp
  exact h0
theorem w9_v6 : W9 m ρ c (Proc.devRef .tc main_v6) = Cert.ReferenceIdeal.ReadP.val_main_v7 (F := Ideal) (m ((c : Thread nD τ).loc main_arg2)) := by
  show StableHlo.after hostOps2 (W8 m ρ c) (Proc.devRef .tc main_v6) = _
  have h0 := w8_v6 m ρ c
  generalize W8 m ρ c = V at h0 ⊢
  after_results_simp
  exact h0
theorem w9_v30 : W9 m ρ c (Proc.devRef .tc main_v30) = Cert.ReferenceIdeal.ReadP.val_main_v31 (F := Ideal) (m ((c : Thread nD τ).loc main_arg2)) := by
  show StableHlo.after hostOps2 (W8 m ρ c) (Proc.devRef .tc main_v30) = _
  have h0 := w8_v30 m ρ c
  generalize W8 m ρ c = V at h0 ⊢
  after_results_simp
  exact h0
theorem w9_arg7 : W9 m ρ c (Proc.devRef .tc main_arg7) = (m ((c : Thread nD τ).loc main_arg7)) := by
  show StableHlo.after hostOps2 (W8 m ρ c) (Proc.devRef .tc main_arg7) = _
  have h0 := w8_arg7 m ρ c
  generalize W8 m ρ c = V at h0 ⊢
  after_results_simp
  exact h0
theorem w9_arg8 : W9 m ρ c (Proc.devRef .tc main_arg8) = (m ((c : Thread nD τ).loc main_arg8)) := by
  show StableHlo.after hostOps2 (W8 m ρ c) (Proc.devRef .tc main_arg8) = _
  have h0 := w8_arg8 m ρ c
  generalize W8 m ρ c = V at h0 ⊢
  after_results_simp
  exact h0

/-! ## At the third product's exit -/

theorem w10_v94 : W10 m ρ c (Proc.devRef .tc main_v94) = Cert.ReferenceIdeal.ReadP.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) := by
  refine (W10_arr m ρ c 2).trans ((Cert.KernelIdeal.Prod2.arr (V9 m ρ) c).trans ?_)
  unfold Cert.KernelIdeal.Prod2.whole Cert.ReferenceIdeal.ReadP.val_main_v121
  exact congrArg₂ (fun x y => Host.dotGeneral (F := Ideal) Cert.ReferenceIdeal.dot_S100000x128_S128x7_S100000x7_1_0_0_1_n_n none x y) (w9_v93 m ρ c) (w9_arg7 m ρ c)
theorem w10_v47 : W10 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) :=
  (W10_of_ne m ρ c main_v47 (by decide)).trans (w9_v47 m ρ c)
theorem w10_v79 : W10 m ρ c (Proc.devRef .tc main_v79) = Cert.ReferenceIdeal.ReadP.val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) :=
  (W10_of_ne m ρ c main_v79 (by decide)).trans (w9_v79 m ρ c)
theorem w10_v5 : W10 m ρ c (Proc.devRef .tc main_v5) = Cert.ReferenceIdeal.ReadP.val_main_v6 (F := Ideal) (m ((c : Thread nD τ).loc main_arg2)) :=
  (W10_of_ne m ρ c main_v5 (by decide)).trans (w9_v5 m ρ c)
theorem w10_v6 : W10 m ρ c (Proc.devRef .tc main_v6) = Cert.ReferenceIdeal.ReadP.val_main_v7 (F := Ideal) (m ((c : Thread nD τ).loc main_arg2)) :=
  (W10_of_ne m ρ c main_v6 (by decide)).trans (w9_v6 m ρ c)
theorem w10_v30 : W10 m ρ c (Proc.devRef .tc main_v30) = Cert.ReferenceIdeal.ReadP.val_main_v31 (F := Ideal) (m ((c : Thread nD τ).loc main_arg2)) :=
  (W10_of_ne m ρ c main_v30 (by decide)).trans (w9_v30 m ρ c)
theorem w10_arg8 : W10 m ρ c (Proc.devRef .tc main_arg8) = (m ((c : Thread nD τ).loc main_arg8)) :=
  (W10_of_ne m ρ c main_arg8 (by decide)).trans (w9_arg8 m ρ c)

/-! ## At the return -/

theorem w11_v110 : W11 m ρ c (Proc.devRef .tc main_v110) = Cert.ReferenceIdeal.ReadP.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W10 m ρ c) (Proc.devRef .tc main_v110) = _
  have h0 := w10_v5 m ρ c
  have h1 := w10_v6 m ρ c
  have h2 := w10_v30 m ρ c
  have h3 := w10_v94 m ρ c
  have h4 := w10_arg8 m ρ c
  generalize W10 m ρ c = V at h0 h1 h2 h3 h4 ⊢
  after_results_simp
  simp only [h0, h1, h2, h3, h4]
  rfl
theorem w11_v47 : W11 m ρ c (Proc.devRef .tc main_v47) = Cert.ReferenceIdeal.ReadP.val_main_v47 (F := Ideal) (m ((c : Thread nD τ).loc main_arg0)) (m ((c : Thread nD τ).loc main_arg2)) (m ((c : Thread nD τ).loc main_arg3)) (m ((c : Thread nD τ).loc main_arg4)) := by
  show StableHlo.after hostOps3 (W10 m ρ c) (Proc.devRef .tc main_v47) = _
  have h0 := w10_v47 m ρ c
  generalize W10 m ρ c = V at h0 ⊢
  after_results_simp
  exact h0
theorem w11_v79 : W11 m ρ c (Proc.devRef .tc main_v79) = Cert.ReferenceIdeal.ReadP.val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) := by
  show StableHlo.after hostOps3 (W10 m ρ c) (Proc.devRef .tc main_v79) = _
  have h0 := w10_v79 m ρ c
  generalize W10 m ρ c = V at h0 ⊢
  after_results_simp
  exact h0

end Cert.KernelIdeal.Fold

end
-- ==== Proof.lean ====
/-
  The certificate of a three-layer graph convolution whose dense products run as row-tiled kernels.

  Both programs compute, from the same arguments, three results. With r, c the source and target index vectors (the
  given edges followed by one self-loop per node), deg the scatter-add of ones at c, dinv = deg^(-1/2) where deg > 0 and
  0 elsewhere, and w = dinv[r] · dinv[c] the edge weight, a graph convolution of an array X with weight W and bias b is
        conv(X, W, b) = scatter_add_c ( (X·W)[r] · w ) + b .
  The first result is conv(feature, W_f, b_f); the second is conv(structure · gate, W_s, b_s), the gate a thresholded
  sigmoid of emb · embW; the third is conv([2 · a_a · first | 2 · a_s · second], W_r, b_r) with a_s, a_a the two mixing weights
  divided by the sum of their absolute values.
  The reference performs every step on the host and recomputes r, c, deg, dinv and w in each convolution. The kernel
  program computes them once, and performs each dense product X·W as a pipeline of twenty grid points, point t
  multiplying rows 5000 t … 5000 t + 4999 of X (rounded to bf16, as is W: the identity on extended reals) by the whole of
  W into a zero accumulator and writing those rows of the product.
  So the two programs differ in two ways only, and neither changes a value on the extended reals: (1) a product computed
  block of rows by block of rows is the whole product, entry (i, j) of either being the sum over k of X(i, k) · W(k, j) —
  no law of arithmetic is used beyond reading both sums over the same index set, so finiteness of the inputs is never
  needed —; (2) a term written once and used three times is the term written three times. Every other host operation is
  the same operation of the same operands in both programs.

  The modules: KRun (the kernel program's run, the results read at the last boundary's contents); Prod0, Prod1, Prod2
  (each tiled product is the host's product); FoldA, FoldB, FoldC (the contents of the live buffers at each boundary are
  the reference's terms); RefRun and RefRead (the reference's run and its terms, one operation at a time).
-/
import proofs.«168757_j89249420411435_1_alg».proof.Defs
import proofs.«168757_j89249420411435_1_alg».proof.Proof.Gen.Kernel
import proofs.«168757_j89249420411435_1_alg».proof.Proof.Gen.Kernel.Skeleton
import proofs.«168757_j89249420411435_1_alg».proof.Proof.Gen.Kernel.Launch
import proofs.«168757_j89249420411435_1_alg».proof.Proof.Gen.Kernel.Points
import proofs.«168757_j89249420411435_1_alg».proof.Proof.Gen.Kernel.Frame
import proofs.«168757_j89249420411435_1_alg».proof.Proof.Gen.KernelIdeal
import proofs.«168757_j89249420411435_1_alg».proof.Proof.Gen.KernelIdeal.Skeleton
import proofs.«168757_j89249420411435_1_alg».proof.Proof.Gen.KernelIdeal.Launch
import proofs.«168757_j89249420411435_1_alg».proof.Proof.Gen.KernelIdeal.Points
import proofs.«168757_j89249420411435_1_alg».proof.Proof.Gen.KernelIdeal.Frame
import proofs.«168757_j89249420411435_1_alg».proof.Proof.Gen.ReferenceIdeal
import proofs.«168757_j89249420411435_1_alg».proof.Proof.Gen.Pre_finite_inputs
import proofs.«168757_j89249420411435_1_alg».proof.Proof.RefRead
import proofs.«168757_j89249420411435_1_alg».proof.Proof.KRun
import proofs.«168757_j89249420411435_1_alg».proof.Proof.FoldC
import Idealize.ShloMosaic.Adequacy
import Idealize.ShloMosaic.Init

noncomputable section

namespace Cert.Proof

open Idealize.ShloMosaic Idealize.SL.Sem

/-- The word-level kernel program runs, and leaves its arguments as launched. -/
theorem frame_k : Cert.frame_Kernel := fun m ρ _ => Cert.Kernel.Gen.frame m ρ

/-- The idealized kernel program runs, and leaves its arguments as launched. -/
theorem frame_ki : Cert.frame_KernelIdeal := fun m ρ _ => Cert.KernelIdeal.Gen.frame m ρ

/-- The idealized reference runs, and leaves its arguments as launched: its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From memories that agree on the arguments, the kernel program's three results (the last boundary's contents, which
    are the reference's terms of the arguments) and the reference's three results (those terms of its own arguments)
    are equal, entry by entry. -/
theorem algebraic : Cert.algebraic_KernelIdeal_ReferenceIdeal := by
  intro m ρ m' ρ' _ hagree
  refine ⟨fun c => Cert.ReferenceIdeal.ReadP.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.ReadP.val_main_v106 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.ReadP.val_main_v164 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c =>
      ⟨(h c).1.trans (Cert.KernelIdeal.Fold.w11_v47 m ρ c), (h c).2.1.trans (Cert.KernelIdeal.Fold.w11_v79 m ρ c),
        (h c).2.2.1.trans (Cert.KernelIdeal.Fold.w11_v110 m ρ c), (h c).2.2.2⟩) (Cert.KernelIdeal.KRun.run m ρ)
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12⟩ := hagree c
    refine ⟨?_, ?_, ?_, (h c).2.2.2⟩
    · rw [(h c).1, Cert.ReferenceIdeal.ReadP.val_main_v47_eq, e0, e2, e3, e4]
    · rw [(h c).2.1, Cert.ReferenceIdeal.ReadP.val_main_v106_eq, e1, e2, e5, e6, e9, e10]
    · rw [(h c).2.2.1, Cert.ReferenceIdeal.ReadP.val_main_v164_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
